-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x65536x3 : Shape := ⟨3, ![4, 65536, 3]⟩
abbrev S4x65536x16 : Shape := ⟨3, ![4, 65536, 16]⟩
abbrev S4x32x65536x1 : Shape := ⟨4, ![4, 32, 65536, 1]⟩
abbrev S4x16384x16 : Shape := ⟨3, ![4, 16384, 16]⟩
abbrev S4x32x16384x1 : Shape := ⟨4, ![4, 32, 16384, 1]⟩
abbrev S4x65536x1 : Shape := ⟨3, ![4, 65536, 1]⟩
abbrev S_ : Shape := ⟨0, ![]⟩

class Facts : Prop where
  bcast_S_S4x65536x3 : S_.BroadcastsInDim S4x65536x3 (![] : Fin 0 → Fin S4x65536x3.rank)
  reducesTo_S4x65536x3_S_d0_1_2 : S4x65536x3.ReducesTo [0, 1, 2] S_
  h_S_ : 0 < S_.numel
  bcast_S_S4x32x65536x1 : S_.BroadcastsInDim S4x32x65536x1 (![] : Fin 0 → Fin S4x32x65536x1.rank)
  reducesTo_S4x32x65536x1_S_d0_1_2_3 : S4x32x65536x1.ReducesTo [0, 1, 2, 3] S_
  bcast_S_S4x32x16384x1 : S_.BroadcastsInDim S4x32x16384x1 (![] : Fin 0 → Fin S4x32x16384x1.rank)
  reducesTo_S4x32x16384x1_S_d0_1_2_3 : S4x32x16384x1.ReducesTo [0, 1, 2, 3] S_

variable [Facts]

def fn {F : FTy → Type} [FloatOps F] (main_arg0 : FVec F S4x65536x3 .f32) (main_arg1 : IVec S4x65536x16 32) (main_arg2 : FVec F S4x32x65536x1 .f32) (main_arg3 : IVec S4x16384x16 32) (main_arg4 : FVec F S4x32x16384x1 .f32) (main_arg5 : IVec S4x65536x1 32) : IVec S_ 1 :=
  let main_v0 : FVec F S4x65536x3 .f32 := Host.absf main_arg0
  let main_cst : FVec F S_ .f32 := constant S_ .f32 0x7F800000#32
  let main_v1 : FVec F S4x65536x3 .f32 := broadcastInDim S4x65536x3 ![] bcast_S_S4x65536x3 main_cst
  let main_v2 : IVec S4x65536x3 1 := cmpf .olt main_v0 main_v1
  let main_c : IVec S_ 1 := constantI S_ 1 1#1
  let main_v3 : IVec S_ 1 := (fun x v => Host.reduce IntOp.andi x v reducesTo_S4x65536x3_S_d0_1_2 h_S_) main_v2 main_c
  let main_v4 : FVec F S4x32x65536x1 .f32 := Host.absf main_arg2
  let main_cst_0 : FVec F S_ .f32 := constant S_ .f32 0x7F800000#32
  let main_v5 : FVec F S4x32x65536x1 .f32 := broadcastInDim S4x32x65536x1 ![] bcast_S_S4x32x65536x1 main_cst_0
  let main_v6 : IVec S4x32x65536x1 1 := cmpf .olt main_v4 main_v5
  let main_c_1 : IVec S_ 1 := constantI S_ 1 1#1
  let main_v7 : IVec S_ 1 := (fun x v => Host.reduce IntOp.andi x v reducesTo_S4x32x65536x1_S_d0_1_2_3 h_S_) main_v6 main_c_1
  let main_v8 : IVec S_ 1 := andi main_v3 main_v7
  let main_v9 : FVec F S4x32x16384x1 .f32 := Host.absf main_arg4
  let main_cst_2 : FVec F S_ .f32 := constant S_ .f32 0x7F800000#32
  let main_v10 : FVec F S4x32x16384x1 .f32 := broadcastInDim S4x32x16384x1 ![] bcast_S_S4x32x16384x1 main_cst_2
  let main_v11 : IVec S4x32x16384x1 1 := cmpf .olt main_v9 main_v10
  let main_c_3 : IVec S_ 1 := constantI S_ 1 1#1
  let main_v12 : IVec S_ 1 := (fun x v => Host.reduce IntOp.andi x v reducesTo_S4x32x16384x1_S_d0_1_2_3 h_S_) main_v11 main_c_3
  let main_v13 : IVec S_ 1 := andi main_v8 main_v12
  main_v13
-- ==== Kernel.lean ====
abbrev S4x65536x3 : Shape := ⟨3, ![4, 65536, 3]⟩
abbrev S4x65536x16 : Shape := ⟨3, ![4, 65536, 16]⟩
abbrev S4x32x65536x1 : Shape := ⟨4, ![4, 32, 65536, 1]⟩
abbrev S4x16384x16 : Shape := ⟨3, ![4, 16384, 16]⟩
abbrev S4x32x16384x1 : Shape := ⟨4, ![4, 32, 16384, 1]⟩
abbrev S4x65536x1 : Shape := ⟨3, ![4, 65536, 1]⟩
abbrev S_ : Shape := ⟨0, ![]⟩
abbrev S4x65536x16x1 : Shape := ⟨4, ![4, 65536, 16, 1]⟩
abbrev S4x65536x16x3 : Shape := ⟨4, ![4, 65536, 16, 3]⟩
abbrev S3x4x65536 : Shape := ⟨3, ![3, 4, 65536]⟩
abbrev S3x262144 : Shape := ⟨2, ![3, 262144]⟩
abbrev S3x16x4x65536 : Shape := ⟨4, ![3, 16, 4, 65536]⟩
abbrev S3x16x262144 : Shape := ⟨3, ![3, 16, 262144]⟩
abbrev S10x16x262144 : Shape := ⟨3, ![10, 16, 262144]⟩
abbrev S3x16384 : Shape := ⟨2, ![3, 16384]⟩
abbrev S3x16x16384 : Shape := ⟨3, ![3, 16, 16384]⟩
abbrev S10x16x16384 : Shape := ⟨3, ![10, 16, 16384]⟩
abbrev S3x1x16384 : Shape := ⟨3, ![3, 1, 16384]⟩
abbrev S16x16384 : Shape := ⟨2, ![16, 16384]⟩
abbrev S1x16x16384 : Shape := ⟨3, ![1, 16, 16384]⟩
abbrev S10x16x4x65536 : Shape := ⟨4, ![10, 16, 4, 65536]⟩
abbrev S4x65536x16x10 : Shape := ⟨4, ![4, 65536, 16, 10]⟩
abbrev S4x32x65536 : Shape := ⟨3, ![4, 32, 65536]⟩
abbrev S4x1x262144 : Shape := ⟨3, ![4, 1, 262144]⟩
abbrev S4x262144x1 : Shape := ⟨3, ![4, 262144, 1]⟩
abbrev S1 : Shape := ⟨1, ![1]⟩
abbrev S1x1x1 : Shape := ⟨3, ![1, 1, 1]⟩
abbrev S4x262144 : Shape := ⟨2, ![4, 262144]⟩
abbrev S4x32x262144 : Shape := ⟨3, ![4, 32, 262144]⟩
abbrev S4x32x16384x16 : Shape := ⟨4, ![4, 32, 16384, 16]⟩
abbrev S16x4x32x16384 : Shape := ⟨4, ![16, 4, 32, 16384]⟩
abbrev S16x128x16384 : Shape := ⟨3, ![16, 128, 16384]⟩
abbrev S128x16384 : Shape := ⟨2, ![128, 16384]⟩
abbrev S16x128x1024 : Shape := ⟨3, ![16, 128, 1024]⟩
abbrev S128x1024 : Shape := ⟨2, ![128, 1024]⟩
abbrev S4x32x16384 : Shape := ⟨3, ![4, 32, 16384]⟩
abbrev S4x1x65536 : Shape := ⟨3, ![4, 1, 65536]⟩
abbrev S4x65536 : Shape := ⟨2, ![4, 65536]⟩

abbrev nBuf : Space → Nat
  | .hbm => 78
  | .vmem => 10
  | .smem => 0
  | _ => 0

abbrev bufTy : (tb : Table) → Fin (tcTables nBuf tb) → BufTy
  | .hbm, ⟨0, _⟩ => ⟨S4x65536x3, .f32⟩
  | .hbm, ⟨1, _⟩ => ⟨S4x65536x16, .i32⟩
  | .hbm, ⟨2, _⟩ => ⟨S4x32x65536x1, .f32⟩
  | .hbm, ⟨3, _⟩ => ⟨S4x16384x16, .i32⟩
  | .hbm, ⟨4, _⟩ => ⟨S4x32x16384x1, .f32⟩
  | .hbm, ⟨5, _⟩ => ⟨S4x65536x1, .i32⟩
  | .hbm, ⟨6, _⟩ => ⟨S_, .i32⟩
  | .hbm, ⟨7, _⟩ => ⟨S4x65536x16, .i32⟩
  | .hbm, ⟨8, _⟩ => ⟨S4x65536x16, .i1⟩
  | .hbm, ⟨9, _⟩ => ⟨S_, .i32⟩
  | .hbm, ⟨10, _⟩ => ⟨S4x65536x16, .i32⟩
  | .hbm, ⟨11, _⟩ => ⟨S4x65536x16, .i32⟩
  | .hbm, ⟨12, _⟩ => ⟨S4x65536x16, .i32⟩
  | .hbm, ⟨13, _⟩ => ⟨S4x65536x16x1, .i32⟩
  | .hbm, ⟨14, _⟩ => ⟨S4x65536x16x3, .f32⟩
  | .hbm, ⟨15, _⟩ => ⟨S3x4x65536, .f32⟩
  | .hbm, ⟨16, _⟩ => ⟨S3x262144, .f32⟩
  | .hbm, ⟨17, _⟩ => ⟨S3x16x4x65536, .f32⟩
  | .hbm, ⟨18, _⟩ => ⟨S3x16x262144, .f32⟩
  | .hbm, ⟨19, _⟩ => ⟨S10x16x262144, .f32⟩
  | .hbm, ⟨20, _⟩ => ⟨S10x16x4x65536, .f32⟩
  | .hbm, ⟨21, _⟩ => ⟨S4x65536x16x10, .f32⟩
  | .hbm, ⟨22, _⟩ => ⟨S4x32x65536, .f32⟩
  | .hbm, ⟨23, _⟩ => ⟨S4x1x262144, .i32⟩
  | .hbm, ⟨24, _⟩ => ⟨S_, .i32⟩
  | .hbm, ⟨25, _⟩ => ⟨S4x1x262144, .i32⟩
  | .hbm, ⟨26, _⟩ => ⟨S4x1x262144, .i1⟩
  | .hbm, ⟨27, _⟩ => ⟨S_, .i32⟩
  | .hbm, ⟨28, _⟩ => ⟨S4x1x262144, .i32⟩
  | .hbm, ⟨29, _⟩ => ⟨S4x1x262144, .i32⟩
  | .hbm, ⟨30, _⟩ => ⟨S4x1x262144, .i32⟩
  | .hbm, ⟨31, _⟩ => ⟨S4x262144x1, .i32⟩
  | .hbm, ⟨32, _⟩ => ⟨S1, .i32⟩
  | .hbm, ⟨33, _⟩ => ⟨S_, .i32⟩
  | .hbm, ⟨34, _⟩ => ⟨S4x262144x1, .i32⟩
  | .hbm, ⟨35, _⟩ => ⟨S4x262144x1, .i1⟩
  | .hbm, ⟨36, _⟩ => ⟨S1x1x1, .i32⟩
  | .hbm, ⟨37, _⟩ => ⟨S4x262144x1, .i32⟩
  | .hbm, ⟨38, _⟩ => ⟨S4x262144x1, .i1⟩
  | .hbm, ⟨39, _⟩ => ⟨S4x262144x1, .i1⟩
  | .hbm, ⟨40, _⟩ => ⟨S_, .i1⟩
  | .hbm, ⟨41, _⟩ => ⟨S4x262144, .i1⟩
  | .hbm, ⟨42, _⟩ => ⟨S4x32x262144, .f32⟩
  | .hbm, ⟨43, _⟩ => ⟨S4x32x262144, .i1⟩
  | .hbm, ⟨44, _⟩ => ⟨S_, .f32⟩
  | .hbm, ⟨45, _⟩ => ⟨S4x32x262144, .f32⟩
  | .hbm, ⟨46, _⟩ => ⟨S4x32x262144, .f32⟩
  | .hbm, ⟨47, _⟩ => ⟨S4x32x16384x16, .f32⟩
  | .hbm, ⟨48, _⟩ => ⟨S16x4x32x16384, .f32⟩
  | .hbm, ⟨49, _⟩ => ⟨S16x128x16384, .f32⟩
  | .hbm, ⟨50, _⟩ => ⟨S128x16384, .f32⟩
  | .hbm, ⟨51, _⟩ => ⟨S4x32x16384x1, .f32⟩
  | .hbm, ⟨52, _⟩ => ⟨S4x32x16384, .f32⟩
  | .hbm, ⟨53, _⟩ => ⟨S4x1x65536, .i32⟩
  | .hbm, ⟨54, _⟩ => ⟨S_, .i32⟩
  | .hbm, ⟨55, _⟩ => ⟨S4x1x65536, .i32⟩
  | .hbm, ⟨56, _⟩ => ⟨S4x1x65536, .i1⟩
  | .hbm, ⟨57, _⟩ => ⟨S_, .i32⟩
  | .hbm, ⟨58, _⟩ => ⟨S4x1x65536, .i32⟩
  | .hbm, ⟨59, _⟩ => ⟨S4x1x65536, .i32⟩
  | .hbm, ⟨60, _⟩ => ⟨S4x1x65536, .i32⟩
  | .hbm, ⟨61, _⟩ => ⟨S4x65536x1, .i32⟩
  | .hbm, ⟨62, _⟩ => ⟨S1, .i32⟩
  | .hbm, ⟨63, _⟩ => ⟨S_, .i32⟩
  | .hbm, ⟨64, _⟩ => ⟨S4x65536x1, .i32⟩
  | .hbm, ⟨65, _⟩ => ⟨S4x65536x1, .i1⟩
  | .hbm, ⟨66, _⟩ => ⟨S1x1x1, .i32⟩
  | .hbm, ⟨67, _⟩ => ⟨S4x65536x1, .i32⟩
  | .hbm, ⟨68, _⟩ => ⟨S4x65536x1, .i1⟩
  | .hbm, ⟨69, _⟩ => ⟨S4x65536x1, .i1⟩
  | .hbm, ⟨70, _⟩ => ⟨S_, .i1⟩
  | .hbm, ⟨71, _⟩ => ⟨S4x65536, .i1⟩
  | .hbm, ⟨72, _⟩ => ⟨S4x32x65536, .f32⟩
  | .hbm, ⟨73, _⟩ => ⟨S4x32x65536, .i1⟩
  | .hbm, ⟨74, _⟩ => ⟨S_, .f32⟩
  | .hbm, ⟨75, _⟩ => ⟨S4x32x65536, .f32⟩
  | .hbm, ⟨76, _⟩ => ⟨S4x32x65536, .f32⟩
  | .hbm, ⟨77, _⟩ => ⟨S4x32x65536x1, .f32⟩
  | .local _ .vmem, ⟨0, _⟩ => ⟨S3x16384, .f32⟩
  | .local _ .vmem, ⟨1, _⟩ => ⟨S3x16384, .f32⟩
  | .local _ .vmem, ⟨2, _⟩ => ⟨S3x16x16384, .f32⟩
  | .local _ .vmem, ⟨3, _⟩ => ⟨S3x16x16384, .f32⟩
  | .local _ .vmem, ⟨4, _⟩ => ⟨S10x16x16384, .f32⟩
  | .local _ .vmem, ⟨5, _⟩ => ⟨S10x16x16384, .f32⟩
  | .local _ .vmem, ⟨6, _⟩ => ⟨S16x128x1024, .f32⟩
  | .local _ .vmem, ⟨7, _⟩ => ⟨S16x128x1024, .f32⟩
  | .local _ .vmem, ⟨8, _⟩ => ⟨S128x1024, .f32⟩
  | .local _ .vmem, ⟨9, _⟩ => ⟨S128x1024, .f32⟩
  | _, _ => ⟨S4x65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v24 : Ref sig .tc := ⟨.hbm, 76, rfl⟩
abbrev main_v25 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S3x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x16x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10x16x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S16x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  bcast_S_S4x65536x16 : S_.BroadcastsInDim S4x65536x16 (![] : Fin 0 → Fin S4x65536x16.rank)
  bcast_S4x65536x16_S4x65536x16x1_0_1_2 : S4x65536x16.BroadcastsInDim S4x65536x16x1 (![0, 1, 2] : Fin 3 → Fin S4x65536x16x1.rank)
  transposes_S4x65536x3_S3x4x65536_2_0_1 : S4x65536x3.Transposes [2, 0, 1] S3x4x65536
  shapeCasts_S3x4x65536_S3x262144 : S3x4x65536.ShapeCasts S3x262144
  transposes_S4x65536x16x3_S3x16x4x65536_3_2_0_1 : S4x65536x16x3.Transposes [3, 2, 0, 1] S3x16x4x65536
  shapeCasts_S3x16x4x65536_S3x16x262144 : S3x16x4x65536.ShapeCasts S3x16x262144
  inb_S3x16384_S3x16384_0_0 : ∀ a, (![0, 0] : Fin 2 → Nat) a + S3x16384.size a ≤ S3x16384.size a
  h_S3x16384 : 0 < S3x16384.numel
  shapeCasts_S3x16384_S3x16384 : S3x16384.ShapeCasts S3x16384
  inb_S3x16x16384_S3x16x16384_0_0_0 : ∀ a, (![0, 0, 0] : Fin 3 → Nat) a + S3x16x16384.size a ≤ S3x16x16384.size a
  h_S3x16x16384 : 0 < S3x16x16384.numel
  shapeCasts_S3x16x16384_S3x16x16384 : S3x16x16384.ShapeCasts S3x16x16384
  shapeCasts_S3x16384_S3x1x16384 : S3x16384.ShapeCasts S3x1x16384
  shapeCasts_S3x1x16384_S3x1x16384 : S3x1x16384.ShapeCasts S3x1x16384
  broadcasts_S3x1x16384_S3x16x16384 : S3x1x16384.Broadcasts S3x16x16384
  reduces_S3x16x16384_S16x16384 : S3x16x16384.Reduces [0] S16x16384
  shapeCasts_S16x16384_S1x16x16384 : S16x16384.ShapeCasts S1x16x16384
  concatenates_S1x16x16384_S3x16x16384_S3x16x16384_S3x16x16384_S10x16x16384_d0 : Shape.Concatenates [S1x16x16384, S3x16x16384, S3x16x16384, S3x16x16384] S10x16x16384 0
  inb_S10x16x16384_S10x16x16384_0_0_0 : ∀ a, (![0, 0, 0] : Fin 3 → Nat) a + S10x16x16384.size a ≤ S10x16x16384.size a
  h_S10x16x16384 : 0 < S10x16x16384.numel
  shapeCasts_S10x16x262144_S10x16x4x65536 : S10x16x262144.ShapeCasts S10x16x4x65536
  transposes_S10x16x4x65536_S4x65536x16x10_2_3_1_0 : S10x16x4x65536.Transposes [2, 3, 1, 0] S4x65536x16x10
  shapeCasts_S4x32x65536x1_S4x32x65536 : S4x32x65536x1.ShapeCasts S4x32x65536
  shapeCasts_S4x16384x16_S4x1x262144 : S4x16384x16.ShapeCasts S4x1x262144
  bcast_S_S4x1x262144 : S_.BroadcastsInDim S4x1x262144 (![] : Fin 0 → Fin S4x1x262144.rank)
  shapeCasts_S4x1x262144_S4x262144x1 : S4x1x262144.ShapeCasts S4x262144x1
  bcast_S_S4x262144x1 : S_.BroadcastsInDim S4x262144x1 (![] : Fin 0 → Fin S4x262144x1.rank)
  bcast_S1_S1x1x1_2 : S1.BroadcastsInDim S1x1x1 (![2] : Fin 1 → Fin S1x1x1.rank)
  bcast_S1x1x1_S4x262144x1_0_1_2 : S1x1x1.BroadcastsInDim S4x262144x1 (![0, 1, 2] : Fin 3 → Fin S4x262144x1.rank)
  reducesTo_S4x262144x1_S4x262144_d2 : S4x262144x1.ReducesTo [2] S4x262144
  h_S_ : 0 < S_.numel
  bcast_S4x262144_S4x32x262144_0_2 : S4x262144.BroadcastsInDim S4x32x262144 (![0, 2] : Fin 2 → Fin S4x32x262144.rank)
  bcast_S_S4x32x262144 : S_.BroadcastsInDim S4x32x262144 (![] : Fin 0 → Fin S4x32x262144.rank)
  shapeCasts_S4x32x262144_S4x32x16384x16 : S4x32x262144.ShapeCasts S4x32x16384x16
  transposes_S4x32x16384x16_S16x4x32x16384_3_0_1_2 : S4x32x16384x16.Transposes [3, 0, 1, 2] S16x4x32x16384
  shapeCasts_S16x4x32x16384_S16x128x16384 : S16x4x32x16384.ShapeCasts S16x128x16384
  inb_S16x128x1024_S16x128x1024_0_0_0 : ∀ a, (![0, 0, 0] : Fin 3 → Nat) a + S16x128x1024.size a ≤ S16x128x1024.size a
  h_S16x128x1024 : 0 < S16x128x1024.numel
  shapeCasts_S16x128x1024_S16x128x1024 : S16x128x1024.ShapeCasts S16x128x1024
  reduces_S16x128x1024_S128x1024 : S16x128x1024.Reduces [0] S128x1024
  inb_S128x1024_S128x1024_0_0 : ∀ a, (![0, 0] : Fin 2 → Nat) a + S128x1024.size a ≤ S128x1024.size a
  h_S128x1024 : 0 < S128x1024.numel
  shapeCasts_S128x16384_S4x32x16384x1 : S128x16384.ShapeCasts S4x32x16384x1
  shapeCasts_S4x32x16384x1_S4x32x16384 : S4x32x16384x1.ShapeCasts S4x32x16384
  shapeCasts_S4x65536x1_S4x1x65536 : S4x65536x1.ShapeCasts S4x1x65536
  bcast_S_S4x1x65536 : S_.BroadcastsInDim S4x1x65536 (![] : Fin 0 → Fin S4x1x65536.rank)
  shapeCasts_S4x1x65536_S4x65536x1 : S4x1x65536.ShapeCasts S4x65536x1
  bcast_S_S4x65536x1 : S_.BroadcastsInDim S4x65536x1 (![] : Fin 0 → Fin S4x65536x1.rank)
  bcast_S1x1x1_S4x65536x1_0_1_2 : S1x1x1.BroadcastsInDim S4x65536x1 (![0, 1, 2] : Fin 3 → Fin S4x65536x1.rank)
  reducesTo_S4x65536x1_S4x65536_d2 : S4x65536x1.ReducesTo [2] S4x65536
  bcast_S4x65536_S4x32x65536_0_2 : S4x65536.BroadcastsInDim S4x32x65536 (![0, 2] : Fin 2 → Fin S4x32x65536.rank)
  bcast_S_S4x32x65536 : S_.BroadcastsInDim S4x32x65536 (![] : Fin 0 → Fin S4x32x65536.rank)
  bcast_S4x32x65536_S4x32x65536x1_0_1_2 : S4x32x65536.BroadcastsInDim S4x32x65536x1 (![0, 1, 2] : Fin 3 → Fin S4x32x65536x1.rank)
  gather_S4x65536x3_S4x65536x16x1_S4x65536x16x3_3_1_0_0_1_3_113_wf : GatherDims.WF S4x65536x3 S4x65536x16x1 S4x65536x16x3 [3] [1] [0] [1] [0] 3 ![1, 1, 3]
  gather_S4x32x65536_S4x262144x1_S4x32x262144_1_2_0_0_2_2_1321_wf : GatherDims.WF S4x32x65536 S4x262144x1 S4x32x262144 [1] [2] [0] [2] [0] 2 ![1, 32, 1]
  gather_S4x32x16384_S4x65536x1_S4x32x65536_1_2_0_0_2_2_1321_wf : GatherDims.WF S4x32x16384 S4x65536x1 S4x32x65536 [1] [2] [0] [2] [0] 2 ![1, 32, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x16384.size a ≤ S3x262144.size a
  hwx0_0 : ∀ i : grid0.Coords, EltTy.bits .f32 = 32 ∨ (Rect.block (s := S3x262144) S3x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x16x16384.size a ≤ S3x16x262144.size a
  hwx0_1 : ∀ i : grid0.Coords, EltTy.bits .f32 = 32 ∨ (Rect.block (s := S3x16x262144) S3x16x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10x16x16384.size a ≤ S10x16x262144.size a
  hwx0_2 : ∀ i : grid0.Coords, EltTy.bits .f32 = 32 ∨ (Rect.block (s := S10x16x262144) S10x16x16384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x128x1024.size a ≤ S16x128x16384.size a
  hwx1_0 : ∀ i : grid1.Coords, EltTy.bits .f32 = 32 ∨ (Rect.block (s := S16x128x16384) S16x128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S128x16384.size a
  hwx1_1 : ∀ i : grid1.Coords, EltTy.bits .f32 = 32 ∨ (Rect.block (s := S128x16384) S128x1024.size (cc1_transform_1 i) (hinb1_1 i)).WholeWords (EltTy.packing .f32)

variable [Facts₀]

def gather_S4x65536x3_S4x65536x16x1_S4x65536x16x3_3_1_0_0_1_3_113 : GatherDims S4x65536x3 S4x65536x16x1 S4x65536x16x3 where
  offsetDims := [3]
  collapsedSliceDims := [1]
  operandBatchingDims := [0]
  startIndicesBatchingDims := [0]
  startIndexMap := [1]
  indexVectorDim := 3
  sliceSizes := ![1, 1, 3]
  wf := gather_S4x65536x3_S4x65536x16x1_S4x65536x16x3_3_1_0_0_1_3_113_wf
def gather_S4x32x65536_S4x262144x1_S4x32x262144_1_2_0_0_2_2_1321 : GatherDims S4x32x65536 S4x262144x1 S4x32x262144 where
  offsetDims := [1]
  collapsedSliceDims := [2]
  operandBatchingDims := [0]
  startIndicesBatchingDims := [0]
  startIndexMap := [2]
  indexVectorDim := 2
  sliceSizes := ![1, 32, 1]
  wf := gather_S4x32x65536_S4x262144x1_S4x32x262144_1_2_0_0_2_2_1321_wf
def gather_S4x32x16384_S4x65536x1_S4x32x65536_1_2_0_0_2_2_1321 : GatherDims S4x32x16384 S4x65536x1 S4x32x65536 where
  offsetDims := [1]
  collapsedSliceDims := [2]
  operandBatchingDims := [0]
  startIndicesBatchingDims := [0]
  startIndexMap := [2]
  indexVectorDim := 2
  sliceSizes := ![1, 32, 1]
  wf := gather_S4x32x16384_S4x65536x1_S4x32x65536_1_2_0_0_2_2_1321_wf

abbrev win0_0 : Pipeline.Window sig grid0 :=
  Pipeline.Window.ofSpec (Memref.whole main_v8) S3x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S3x16x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10x16x16384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S16x128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S128x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S4x65536x3 : Shape := ⟨3, ![4, 65536, 3]⟩
abbrev S4x65536x16 : Shape := ⟨3, ![4, 65536, 16]⟩
abbrev S4x32x65536x1 : Shape := ⟨4, ![4, 32, 65536, 1]⟩
abbrev S4x16384x16 : Shape := ⟨3, ![4, 16384, 16]⟩
abbrev S4x32x16384x1 : Shape := ⟨4, ![4, 32, 16384, 1]⟩
abbrev S4x65536x1 : Shape := ⟨3, ![4, 65536, 1]⟩
abbrev S_ : Shape := ⟨0, ![]⟩
abbrev S4x65536x16x1 : Shape := ⟨4, ![4, 65536, 16, 1]⟩
abbrev S4x65536x16x3 : Shape := ⟨4, ![4, 65536, 16, 3]⟩
abbrev S4x65536x1x3 : Shape := ⟨4, ![4, 65536, 1, 3]⟩
abbrev S4x65536x16x10 : Shape := ⟨4, ![4, 65536, 16, 10]⟩
abbrev S4x32x65536 : Shape := ⟨3, ![4, 32, 65536]⟩
abbrev S4x1x262144 : Shape := ⟨3, ![4, 1, 262144]⟩
abbrev S4x262144x1 : Shape := ⟨3, ![4, 262144, 1]⟩
abbrev S1 : Shape := ⟨1, ![1]⟩
abbrev S1x1x1 : Shape := ⟨3, ![1, 1, 1]⟩
abbrev S4x262144 : Shape := ⟨2, ![4, 262144]⟩
abbrev S4x32x262144 : Shape := ⟨3, ![4, 32, 262144]⟩
abbrev S4x32x16384x16 : Shape := ⟨4, ![4, 32, 16384, 16]⟩
abbrev S4x32x16384 : Shape := ⟨3, ![4, 32, 16384]⟩
abbrev S4x1x65536 : Shape := ⟨3, ![4, 1, 65536]⟩
abbrev S4x65536 : Shape := ⟨2, ![4, 65536]⟩

abbrev nBuf : Space → Nat
  | .hbm => 79
  | .vmem => 0
  | .smem => 0
  | _ => 0

abbrev bufTy : (tb : Table) → Fin (tcTables nBuf tb) → BufTy
  | .hbm, ⟨0, _⟩ => ⟨S4x65536x3, .f32⟩
  | .hbm, ⟨1, _⟩ => ⟨S4x65536x16, .i32⟩
  | .hbm, ⟨2, _⟩ => ⟨S4x32x65536x1, .f32⟩
  | .hbm, ⟨3, _⟩ => ⟨S4x16384x16, .i32⟩
  | .hbm, ⟨4, _⟩ => ⟨S4x32x16384x1, .f32⟩
  | .hbm, ⟨5, _⟩ => ⟨S4x65536x1, .i32⟩
  | .hbm, ⟨6, _⟩ => ⟨S_, .i32⟩
  | .hbm, ⟨7, _⟩ => ⟨S4x65536x16, .i32⟩
  | .hbm, ⟨8, _⟩ => ⟨S4x65536x16, .i1⟩
  | .hbm, ⟨9, _⟩ => ⟨S_, .i32⟩
  | .hbm, ⟨10, _⟩ => ⟨S4x65536x16, .i32⟩
  | .hbm, ⟨11, _⟩ => ⟨S4x65536x16, .i32⟩
  | .hbm, ⟨12, _⟩ => ⟨S4x65536x16, .i32⟩
  | .hbm, ⟨13, _⟩ => ⟨S4x65536x16x1, .i32⟩
  | .hbm, ⟨14, _⟩ => ⟨S4x65536x16x3, .f32⟩
  | .hbm, ⟨15, _⟩ => ⟨S4x65536x1x3, .f32⟩
  | .hbm, ⟨16, _⟩ => ⟨S4x65536x16x3, .f32⟩
  | .hbm, ⟨17, _⟩ => ⟨S4x65536x16x3, .f32⟩
  | .hbm, ⟨18, _⟩ => ⟨S4x65536x16x3, .f32⟩
  | .hbm, ⟨19, _⟩ => ⟨S_, .f32⟩
  | .hbm, ⟨20, _⟩ => ⟨S4x65536x16, .f32⟩
  | .hbm, ⟨21, _⟩ => ⟨S4x65536x16x1, .f32⟩
  | .hbm, ⟨22, _⟩ => ⟨S4x65536x16x1, .f32⟩
  | .hbm, ⟨23, _⟩ => ⟨S4x65536x16x10, .f32⟩
  | .hbm, ⟨24, _⟩ => ⟨S4x32x65536, .f32⟩
  | .hbm, ⟨25, _⟩ => ⟨S4x1x262144, .i32⟩
  | .hbm, ⟨26, _⟩ => ⟨S_, .i32⟩
  | .hbm, ⟨27, _⟩ => ⟨S4x1x262144, .i32⟩
  | .hbm, ⟨28, _⟩ => ⟨S4x1x262144, .i1⟩
  | .hbm, ⟨29, _⟩ => ⟨S_, .i32⟩
  | .hbm, ⟨30, _⟩ => ⟨S4x1x262144, .i32⟩
  | .hbm, ⟨31, _⟩ => ⟨S4x1x262144, .i32⟩
  | .hbm, ⟨32, _⟩ => ⟨S4x1x262144, .i32⟩
  | .hbm, ⟨33, _⟩ => ⟨S4x262144x1, .i32⟩
  | .hbm, ⟨34, _⟩ => ⟨S1, .i32⟩
  | .hbm, ⟨35, _⟩ => ⟨S_, .i32⟩
  | .hbm, ⟨36, _⟩ => ⟨S4x262144x1, .i32⟩
  | .hbm, ⟨37, _⟩ => ⟨S4x262144x1, .i1⟩
  | .hbm, ⟨38, _⟩ => ⟨S1x1x1, .i32⟩
  | .hbm, ⟨39, _⟩ => ⟨S4x262144x1, .i32⟩
  | .hbm, ⟨40, _⟩ => ⟨S4x262144x1, .i1⟩
  | .hbm, ⟨41, _⟩ => ⟨S4x262144x1, .i1⟩
  | .hbm, ⟨42, _⟩ => ⟨S_, .i1⟩
  | .hbm, ⟨43, _⟩ => ⟨S4x262144, .i1⟩
  | .hbm, ⟨44, _⟩ => ⟨S4x32x262144, .f32⟩
  | .hbm, ⟨45, _⟩ => ⟨S4x32x262144, .i1⟩
  | .hbm, ⟨46, _⟩ => ⟨S_, .f32⟩
  | .hbm, ⟨47, _⟩ => ⟨S4x32x262144, .f32⟩
  | .hbm, ⟨48, _⟩ => ⟨S4x32x262144, .f32⟩
  | .hbm, ⟨49, _⟩ => ⟨S4x32x16384x16, .f32⟩
  | .hbm, ⟨50, _⟩ => ⟨S_, .f32⟩
  | .hbm, ⟨51, _⟩ => ⟨S4x32x16384, .f32⟩
  | .hbm, ⟨52, _⟩ => ⟨S4x32x16384x1, .f32⟩
  | .hbm, ⟨53, _⟩ => ⟨S4x32x16384, .f32⟩
  | .hbm, ⟨54, _⟩ => ⟨S4x1x65536, .i32⟩
  | .hbm, ⟨55, _⟩ => ⟨S_, .i32⟩
  | .hbm, ⟨56, _⟩ => ⟨S4x1x65536, .i32⟩
  | .hbm, ⟨57, _⟩ => ⟨S4x1x65536, .i1⟩
  | .hbm, ⟨58, _⟩ => ⟨S_, .i32⟩
  | .hbm, ⟨59, _⟩ => ⟨S4x1x65536, .i32⟩
  | .hbm, ⟨60, _⟩ => ⟨S4x1x65536, .i32⟩
  | .hbm, ⟨61, _⟩ => ⟨S4x1x65536, .i32⟩
  | .hbm, ⟨62, _⟩ => ⟨S4x65536x1, .i32⟩
  | .hbm, ⟨63, _⟩ => ⟨S1, .i32⟩
  | .hbm, ⟨64, _⟩ => ⟨S_, .i32⟩
  | .hbm, ⟨65, _⟩ => ⟨S4x65536x1, .i32⟩
  | .hbm, ⟨66, _⟩ => ⟨S4x65536x1, .i1⟩
  | .hbm, ⟨67, _⟩ => ⟨S1x1x1, .i32⟩
  | .hbm, ⟨68, _⟩ => ⟨S4x65536x1, .i32⟩
  | .hbm, ⟨69, _⟩ => ⟨S4x65536x1, .i1⟩
  | .hbm, ⟨70, _⟩ => ⟨S4x65536x1, .i1⟩
  | .hbm, ⟨71, _⟩ => ⟨S_, .i1⟩
  | .hbm, ⟨72, _⟩ => ⟨S4x65536, .i1⟩
  | .hbm, ⟨73, _⟩ => ⟨S4x32x65536, .f32⟩
  | .hbm, ⟨74, _⟩ => ⟨S4x32x65536, .i1⟩
  | .hbm, ⟨75, _⟩ => ⟨S_, .f32⟩
  | .hbm, ⟨76, _⟩ => ⟨S4x32x65536, .f32⟩
  | .hbm, ⟨77, _⟩ => ⟨S4x32x65536, .f32⟩
  | .hbm, ⟨78, _⟩ => ⟨S4x32x65536x1, .f32⟩
  | _, _ => ⟨S4x65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v17 : Ref sig .tc := ⟨.hbm, 48, rfl⟩
abbrev main_v18 : Ref sig .tc := ⟨.hbm, 49, rfl⟩
abbrev main_cst_1 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_call1_cst : Ref sig .tc := ⟨.hbm, 75, rfl⟩
abbrev main_call1_v15 : Ref sig .tc := ⟨.hbm, 76, rfl⟩
abbrev main_v23 : Ref sig .tc := ⟨.hbm, 77, rfl⟩
abbrev main_v24 : Ref sig .tc := ⟨.hbm, 78, rfl⟩

abbrev nD : Nat := 1
abbrev τ : Topo := Topo.v7x

variable {F : FTy → Type} [FloatOps F]

class Facts₀ : Prop where
  bcast_S_S4x65536x16 : S_.BroadcastsInDim S4x65536x16 (![] : Fin 0 → Fin S4x65536x16.rank)
  bcast_S4x65536x16_S4x65536x16x1_0_1_2 : S4x65536x16.BroadcastsInDim S4x65536x16x1 (![0, 1, 2] : Fin 3 → Fin S4x65536x16x1.rank)
  bcast_S4x65536x3_S4x65536x1x3_0_1_3 : S4x65536x3.BroadcastsInDim S4x65536x1x3 (![0, 1, 3] : Fin 3 → Fin S4x65536x1x3.rank)
  bcast_S4x65536x1x3_S4x65536x16x3_0_1_2_3 : S4x65536x1x3.BroadcastsInDim S4x65536x16x3 (![0, 1, 2, 3] : Fin 4 → Fin S4x65536x16x3.rank)
  reducesTo_S4x65536x16x3_S4x65536x16_d3 : S4x65536x16x3.ReducesTo [3] S4x65536x16
  h_S_ : 0 < S_.numel
  concatenates_S4x65536x16x1_S4x65536x16x3_S4x65536x16x3_S4x65536x16x3_S4x65536x16x10_d3 : Shape.Concatenates [S4x65536x16x1, S4x65536x16x3, S4x65536x16x3, S4x65536x16x3] S4x65536x16x10 3
  shapeCasts_S4x32x65536x1_S4x32x65536 : S4x32x65536x1.ShapeCasts S4x32x65536
  shapeCasts_S4x16384x16_S4x1x262144 : S4x16384x16.ShapeCasts S4x1x262144
  bcast_S_S4x1x262144 : S_.BroadcastsInDim S4x1x262144 (![] : Fin 0 → Fin S4x1x262144.rank)
  shapeCasts_S4x1x262144_S4x262144x1 : S4x1x262144.ShapeCasts S4x262144x1
  bcast_S_S4x262144x1 : S_.BroadcastsInDim S4x262144x1 (![] : Fin 0 → Fin S4x262144x1.rank)
  bcast_S1_S1x1x1_2 : S1.BroadcastsInDim S1x1x1 (![2] : Fin 1 → Fin S1x1x1.rank)
  bcast_S1x1x1_S4x262144x1_0_1_2 : S1x1x1.BroadcastsInDim S4x262144x1 (![0, 1, 2] : Fin 3 → Fin S4x262144x1.rank)
  reducesTo_S4x262144x1_S4x262144_d2 : S4x262144x1.ReducesTo [2] S4x262144
  bcast_S4x262144_S4x32x262144_0_2 : S4x262144.BroadcastsInDim S4x32x262144 (![0, 2] : Fin 2 → Fin S4x32x262144.rank)
  bcast_S_S4x32x262144 : S_.BroadcastsInDim S4x32x262144 (![] : Fin 0 → Fin S4x32x262144.rank)
  shapeCasts_S4x32x262144_S4x32x16384x16 : S4x32x262144.ShapeCasts S4x32x16384x16
  reducesTo_S4x32x16384x16_S4x32x16384_d3 : S4x32x16384x16.ReducesTo [3] S4x32x16384
  bcast_S4x32x16384_S4x32x16384x1_0_1_2 : S4x32x16384.BroadcastsInDim S4x32x16384x1 (![0, 1, 2] : Fin 3 → Fin S4x32x16384x1.rank)
  shapeCasts_S4x32x16384x1_S4x32x16384 : S4x32x16384x1.ShapeCasts S4x32x16384
  shapeCasts_S4x65536x1_S4x1x65536 : S4x65536x1.ShapeCasts S4x1x65536
  bcast_S_S4x1x65536 : S_.BroadcastsInDim S4x1x65536 (![] : Fin 0 → Fin S4x1x65536.rank)
  shapeCasts_S4x1x65536_S4x65536x1 : S4x1x65536.ShapeCasts S4x65536x1
  bcast_S_S4x65536x1 : S_.BroadcastsInDim S4x65536x1 (![] : Fin 0 → Fin S4x65536x1.rank)
  bcast_S1x1x1_S4x65536x1_0_1_2 : S1x1x1.BroadcastsInDim S4x65536x1 (![0, 1, 2] : Fin 3 → Fin S4x65536x1.rank)
  reducesTo_S4x65536x1_S4x65536_d2 : S4x65536x1.ReducesTo [2] S4x65536
  bcast_S4x65536_S4x32x65536_0_2 : S4x65536.BroadcastsInDim S4x32x65536 (![0, 2] : Fin 2 → Fin S4x32x65536.rank)
  bcast_S_S4x32x65536 : S_.BroadcastsInDim S4x32x65536 (![] : Fin 0 → Fin S4x32x65536.rank)
  bcast_S4x32x65536_S4x32x65536x1_0_1_2 : S4x32x65536.BroadcastsInDim S4x32x65536x1 (![0, 1, 2] : Fin 3 → Fin S4x32x65536x1.rank)
  gather_S4x65536x3_S4x65536x16x1_S4x65536x16x3_3_1_0_0_1_3_113_wf : GatherDims.WF S4x65536x3 S4x65536x16x1 S4x65536x16x3 [3] [1] [0] [1] [0] 3 ![1, 1, 3]
  gather_S4x32x65536_S4x262144x1_S4x32x262144_1_2_0_0_2_2_1321_wf : GatherDims.WF S4x32x65536 S4x262144x1 S4x32x262144 [1] [2] [0] [2] [0] 2 ![1, 32, 1]
  gather_S4x32x16384_S4x65536x1_S4x32x65536_1_2_0_0_2_2_1321_wf : GatherDims.WF S4x32x16384 S4x65536x1 S4x32x65536 [1] [2] [0] [2] [0] 2 ![1, 32, 1]

variable [Facts₀]

def gather_S4x65536x3_S4x65536x16x1_S4x65536x16x3_3_1_0_0_1_3_113 : GatherDims S4x65536x3 S4x65536x16x1 S4x65536x16x3 where
  offsetDims := [3]
  collapsedSliceDims := [1]
  operandBatchingDims := [0]
  startIndicesBatchingDims := [0]
  startIndexMap := [1]
  indexVectorDim := 3
  sliceSizes := ![1, 1, 3]
  wf := gather_S4x65536x3_S4x65536x16x1_S4x65536x16x3_3_1_0_0_1_3_113_wf
def gather_S4x32x65536_S4x262144x1_S4x32x262144_1_2_0_0_2_2_1321 : GatherDims S4x32x65536 S4x262144x1 S4x32x262144 where
  offsetDims := [1]
  collapsedSliceDims := [2]
  operandBatchingDims := [0]
  startIndicesBatchingDims := [0]
  startIndexMap := [2]
  indexVectorDim := 2
  sliceSizes := ![1, 32, 1]
  wf := gather_S4x32x65536_S4x262144x1_S4x32x262144_1_2_0_0_2_2_1321_wf
def gather_S4x32x16384_S4x65536x1_S4x32x65536_1_2_0_0_2_2_1321 : GatherDims S4x32x16384 S4x65536x1 S4x32x65536 where
  offsetDims := [1]
  collapsedSliceDims := [2]
  operandBatchingDims := [0]
  startIndicesBatchingDims := [0]
  startIndexMap := [2]
  indexVectorDim := 2
  sliceSizes := ![1, 32, 1]
  wf := gather_S4x32x16384_S4x65536x1_S4x32x65536_1_2_0_0_2_2_1321_wf

class Facts : Prop extends Facts₀ where

variable [Facts]
-- ==== Proof.KernelRun.lean ====
/-
  The idealized kernel program's run with every buffer named.  @main is nine segments: a stretch of host
  operations, the relative-position region, three stretches, the max-pool region, three more stretches.  The
  generated frame module folds the buffer contents through those segments (`Gen.W0` … `Gen.W9`) and proves that
  every weakly fair execution ends with the argument arrays unchanged; the same launch, read at EVERY unscoped
  buffer instead of at the six arguments, says that each buffer ends at the last fold `Gen.W9`.  The value of each
  result is then a computation on that fold (the sibling modules).
-/
import proofs.«135792_j22170621181973_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every unscoped buffer of every core ends at
    the last boundary's contents `Gen.W9`: the segments' launch, the last thread state read against the final
    memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The same run read at one TensorCore reference that is not scoped. -/
theorem run_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = W9 m ρ c (Proc.devRef .tc b)) :=
  (θ_run defs _ _).mono (fun r h c => h c _ (mem_uc b hb)) (run_all m ρ)

end Cert.KernelIdeal.Run

end
-- ==== Proof.KernelFold.lean ====
/-
  What the idealized kernel program's buffers hold at the boundaries of its segments, read back to the argument arrays.
  The three index chains (the neighbour gather of the coordinates, the two `take_along_axis` calls with their
  out-of-range masks) are named as functions and never opened: the reference applies the same chains.  Per result:
    * the relative-position result is the transpose of the reshape of what the first region leaves in its output array,
      and that region's two input arrays are the reshaped transposes of the coordinates and of the gathered
      neighbours;
    * the pooled result is the reshape of what the second region leaves, and that region's input array is the reshaped
      transpose of the reshaped taken features;
    * the interpolated result is the second `take_along_axis` chain with a unit axis appended, no region involved.
  A buffer that a stretch of host operations does not write keeps its contents, and a region changes only its own
  arrays; those two facts walk each buffer back through the segments.
-/
import proofs.«135792_j22170621181973_1_alg».proof.Proof.Gen.KernelIdeal.Frame

set_option maxRecDepth 200000

noncomputable section

namespace Cert.KernelIdeal.Fold

open Cert.KernelIdeal Cert.KernelIdeal.Facts₀
open Idealize.ShloMosaic Idealize.ShloMosaic.TcCoe Idealize.SL.Sem Idealize.ShloMosaic.StableHlo

variable {F : FTy → Type} [FloatOps F]

/-- The neighbours' coordinates: row `idx` of the point array for each (point, neighbour), a negative index first
    moved up by the number of points. -/
def gathered (x0 : (⟨S4x65536x3, .f32⟩ : BufTy).Contents (Elt F)) (x1 : (⟨S4x65536x16, .i32⟩ : BufTy).Contents (Elt F)) :
    (⟨S4x65536x16x3, .f32⟩ : BufTy).Contents (Elt F) :=
  (Host.gather gather_S4x65536x3_S4x65536x16x1_S4x65536x16x3_3_1_0_0_1_3_113 x0 (broadcastInDim S4x65536x16x1 ![0, 1, 2] bcast_S4x65536x16_S4x65536x16x1_0_1_2 (select (cmpi .slt x1 (broadcastInDim S4x65536x16 ![] bcast_S_S4x65536x16 (constantI S_ 32 0#32))) (addi x1 (broadcastInDim S4x65536x16 ![] bcast_S_S4x65536x16 (constantI S_ 32 65536#32))) x1)))

/-- `take_along_axis` over the 65536 points: the features `a` at the indices `i` along the point axis (a negative index
    first moved up by the axis length), an entry whose index is outside the axis replaced by the not-a-number pattern. -/
def takeChain (a : (⟨S4x32x65536, .f32⟩ : BufTy).Contents (Elt F)) (i : (⟨S4x1x262144, .i32⟩ : BufTy).Contents (Elt F)) :
    (⟨S4x32x262144, .f32⟩ : BufTy).Contents (Elt F) :=
  (select (broadcastInDim S4x32x262144 ![0, 2] bcast_S4x262144_S4x32x262144_0_2 (Host.reduce IntOp.andi (andi (cmpi .sge (shapeCast _ (select (cmpi .slt i (broadcastInDim S4x1x262144 ![] bcast_S_S4x1x262144 (constantI S_ 32 0#32))) (addi i (broadcastInDim S4x1x262144 ![] bcast_S_S4x1x262144 (constantI S_ 32 65536#32))) i) shapeCasts_S4x1x262144_S4x262144x1) (broadcastInDim S4x262144x1 ![] bcast_S_S4x262144x1 (constantI S_ 32 0#32))) (cmpi .sle (shapeCast _ (select (cmpi .slt i (broadcastInDim S4x1x262144 ![] bcast_S_S4x1x262144 (constantI S_ 32 0#32))) (addi i (broadcastInDim S4x1x262144 ![] bcast_S_S4x1x262144 (constantI S_ 32 65536#32))) i) shapeCasts_S4x1x262144_S4x262144x1) (broadcastInDim S4x262144x1 ![0, 1, 2] bcast_S1x1x1_S4x262144x1_0_1_2 (broadcastInDim S1x1x1 ![2] bcast_S1_S1x1x1_2 (constantI S1 32 65535#32))))) (constantI S_ 1 1#1) reducesTo_S4x262144x1_S4x262144_d2 h_S_)) (Host.gather gather_S4x32x65536_S4x262144x1_S4x32x262144_1_2_0_0_2_2_1321 a (shapeCast _ (select (cmpi .slt i (broadcastInDim S4x1x262144 ![] bcast_S_S4x1x262144 (constantI S_ 32 0#32))) (addi i (broadcastInDim S4x1x262144 ![] bcast_S_S4x1x262144 (constantI S_ 32 65536#32))) i) shapeCasts_S4x1x262144_S4x262144x1)) (broadcastInDim S4x32x262144 ![] bcast_S_S4x32x262144 (constant S_ .f32 0x7FC00000#32)))

/-- `take_along_axis` over the 16384 pooled points, in the same way. -/
def interpChain (a : (⟨S4x32x16384, .f32⟩ : BufTy).Contents (Elt F)) (i : (⟨S4x1x65536, .i32⟩ : BufTy).Contents (Elt F)) :
    (⟨S4x32x65536, .f32⟩ : BufTy).Contents (Elt F) :=
  (select (broadcastInDim S4x32x65536 ![0, 2] bcast_S4x65536_S4x32x65536_0_2 (Host.reduce IntOp.andi (andi (cmpi .sge (shapeCast _ (select (cmpi .slt i (broadcastInDim S4x1x65536 ![] bcast_S_S4x1x65536 (constantI S_ 32 0#32))) (addi i (broadcastInDim S4x1x65536 ![] bcast_S_S4x1x65536 (constantI S_ 32 16384#32))) i) shapeCasts_S4x1x65536_S4x65536x1) (broadcastInDim S4x65536x1 ![] bcast_S_S4x65536x1 (constantI S_ 32 0#32))) (cmpi .sle (shapeCast _ (select (cmpi .slt i (broadcastInDim S4x1x65536 ![] bcast_S_S4x1x65536 (constantI S_ 32 0#32))) (addi i (broadcastInDim S4x1x65536 ![] bcast_S_S4x1x65536 (constantI S_ 32 16384#32))) i) shapeCasts_S4x1x65536_S4x65536x1) (broadcastInDim S4x65536x1 ![0, 1, 2] bcast_S1x1x1_S4x65536x1_0_1_2 (broadcastInDim S1x1x1 ![2] bcast_S1_S1x1x1_2 (constantI S1 32 16383#32))))) (constantI S_ 1 1#1) reducesTo_S4x65536x1_S4x65536_d2 h_S_)) (Host.gather gather_S4x32x16384_S4x65536x1_S4x32x65536_1_2_0_0_2_2_1321 a (shapeCast _ (select (cmpi .slt i (broadcastInDim S4x1x65536 ![] bcast_S_S4x1x65536 (constantI S_ 32 0#32))) (addi i (broadcastInDim S4x1x65536 ![] bcast_S_S4x1x65536 (constantI S_ 32 16384#32))) i) shapeCasts_S4x1x65536_S4x65536x1)) (broadcastInDim S4x32x65536 ![] bcast_S_S4x32x65536 (constant S_ .f32 0x7FC00000#32)))

/-- A reference that no operation of a literal list writes keeps its contents through the list. -/
macro "keeps_through" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## One stretch of host operations at a time, from any contents `X` -/

section Stretches
variable (X : Valuation τ sig (Elt F))

theorem s0_v8 : after Gen.hostOps0 X (Proc.devRef .tc main_v8)
    = shapeCast S3x262144 (transpose S3x4x65536 [2, 0, 1] (X (Proc.devRef .tc main_arg0)) transposes_S4x65536x3_S3x4x65536_2_0_1) shapeCasts_S3x4x65536_S3x262144 := by
  after_results; rfl

theorem s0_v10 : after Gen.hostOps0 X (Proc.devRef .tc main_v10)
    = shapeCast S3x16x262144 (transpose S3x16x4x65536 [3, 2, 0, 1] (gathered (X (Proc.devRef .tc main_arg0)) (X (Proc.devRef .tc main_arg1))) transposes_S4x65536x16x3_S3x16x4x65536_3_2_0_1) shapeCasts_S3x16x4x65536_S3x16x262144 := by
  after_results; rfl

theorem s1_v13 : after Gen.hostOps1 X (Proc.devRef .tc main_v13)
    = transpose S4x65536x16x10 [2, 3, 1, 0] (shapeCast S10x16x4x65536 (X (Proc.devRef .tc main_v11)) shapeCasts_S10x16x262144_S10x16x4x65536) transposes_S10x16x4x65536_S4x65536x16x10_2_3_1_0 := by
  after_results; rfl

theorem s1_v14 : after Gen.hostOps1 X (Proc.devRef .tc main_v14)
    = shapeCast S4x32x65536 (X (Proc.devRef .tc main_arg2)) shapeCasts_S4x32x65536x1_S4x32x65536 := by
  after_results; rfl

theorem s1_v15 : after Gen.hostOps1 X (Proc.devRef .tc main_v15)
    = shapeCast S4x1x262144 (X (Proc.devRef .tc main_arg3)) shapeCasts_S4x16384x16_S4x1x262144 := by
  after_results; rfl

theorem s12_v19 : after Gen.hostOps1_2 X (Proc.devRef .tc main_v19)
    = shapeCast S16x128x16384 (transpose S16x4x32x16384 [3, 0, 1, 2] (shapeCast S4x32x16384x16 (X (Proc.devRef .tc main_v16)) shapeCasts_S4x32x262144_S4x32x16384x16) transposes_S4x32x16384x16_S16x4x32x16384_3_0_1_2) shapeCasts_S16x4x32x16384_S16x128x16384 := by
  after_results; rfl

theorem s2_v21 : after Gen.hostOps2 X (Proc.devRef .tc main_v21)
    = shapeCast S4x32x16384x1 (X (Proc.devRef .tc main_v20)) shapeCasts_S128x16384_S4x32x16384x1 := by
  after_results; rfl

theorem s2_v22 : after Gen.hostOps2 X (Proc.devRef .tc main_v22)
    = shapeCast S4x32x16384 (X (Proc.devRef .tc main_arg4)) shapeCasts_S4x32x16384x1_S4x32x16384 := by
  after_results; rfl

theorem s2_v23 : after Gen.hostOps2 X (Proc.devRef .tc main_v23)
    = shapeCast S4x1x65536 (X (Proc.devRef .tc main_arg5)) shapeCasts_S4x65536x1_S4x1x65536 := by
  after_results; rfl

theorem s22_v25 : after Gen.hostOps2_2 X (Proc.devRef .tc main_v25)
    = broadcastInDim S4x32x65536x1 ![0, 1, 2] bcast_S4x32x65536_S4x32x65536x1_0_1_2 (X (Proc.devRef .tc main_v24)) := by
  after_results

end Stretches

/-! ## The two called functions' stretches

A called function's operations carry the tensor types of their values and move contents to and from the buffers' own
types along an equation of types; at a literal buffer that move is the identity.  Once every such move is removed the
stretch's result is the chain, term for term. -/

theorem ofBuf_toBuf {T : BufTy} (x : TRef sig T) (v : T.Contents (Elt F)) : x.ofBuf (x.toBuf v) = v := by
  obtain ⟨r, rfl, _, _⟩ := x; rfl

theorem ofBuf_v14 (p1 p2 p3) (v : main_v14.ty.Contents (Elt F)) : (TRef.of (T := ⟨S4x32x65536, .f32⟩) main_v14 p1 p2 p3).ofBuf v = v := rfl
theorem ofBuf_v15 (p1 p2 p3) (v : main_v15.ty.Contents (Elt F)) : (TRef.of (T := ⟨S4x1x262144, .i32⟩) main_v15 p1 p2 p3).ofBuf v = v := rfl
theorem ofBuf_c0v5 (p1 p2 p3) (v : main_call0_v5.ty.Contents (Elt F)) : (TRef.of (T := ⟨S4x262144x1, .i32⟩) main_call0_v5 p1 p2 p3).ofBuf v = v := rfl
theorem toBuf_c0v4 (p1 p2 p3) (v : (⟨S4x1x262144, .i32⟩ : BufTy).Contents (Elt F)) : (TRef.of (T := ⟨S4x1x262144, .i32⟩) main_call0_v4 p1 p2 p3).toBuf v = v := rfl
theorem toBuf_v16 (p1 p2 p3) (v : (⟨S4x32x262144, .f32⟩ : BufTy).Contents (Elt F)) : (TRef.of (T := ⟨S4x32x262144, .f32⟩) main_v16 p1 p2 p3).toBuf v = v := rfl

theorem ofBuf_v22 (p1 p2 p3) (v : main_v22.ty.Contents (Elt F)) : (TRef.of (T := ⟨S4x32x16384, .f32⟩) main_v22 p1 p2 p3).ofBuf v = v := rfl
theorem ofBuf_v23 (p1 p2 p3) (v : main_v23.ty.Contents (Elt F)) : (TRef.of (T := ⟨S4x1x65536, .i32⟩) main_v23 p1 p2 p3).ofBuf v = v := rfl
theorem ofBuf_c1v5 (p1 p2 p3) (v : main_call1_v5.ty.Contents (Elt F)) : (TRef.of (T := ⟨S4x65536x1, .i32⟩) main_call1_v5 p1 p2 p3).ofBuf v = v := rfl
theorem toBuf_c1v4 (p1 p2 p3) (v : (⟨S4x1x65536, .i32⟩ : BufTy).Contents (Elt F)) : (TRef.of (T := ⟨S4x1x65536, .i32⟩) main_call1_v4 p1 p2 p3).toBuf v = v := rfl
theorem toBuf_v24 (p1 p2 p3) (v : (⟨S4x32x65536, .f32⟩ : BufTy).Contents (Elt F)) : (TRef.of (T := ⟨S4x32x65536, .f32⟩) main_v24 p1 p2 p3).toBuf v = v := rfl

set_option maxHeartbeats 8000000 in
theorem s11_v16 (X : Valuation τ sig (Elt F)) : after Gen.hostOps1_1 X (Proc.devRef .tc main_v16)
    = takeChain (X (Proc.devRef .tc main_v14)) (X (Proc.devRef .tc main_v15)) := by
  after_results_simp
  simp only [ofBuf_toBuf, ofBuf_v14, ofBuf_v15, ofBuf_c0v5, toBuf_c0v4, toBuf_v16]
  unfold takeChain
  rfl

set_option maxHeartbeats 8000000 in
theorem s21_v24 (X : Valuation τ sig (Elt F)) : after Gen.hostOps2_1 X (Proc.devRef .tc main_v24)
    = interpChain (X (Proc.devRef .tc main_v22)) (X (Proc.devRef .tc main_v23)) := by
  after_results_simp
  simp only [ofBuf_toBuf, ofBuf_v22, ofBuf_v23, ofBuf_c1v5, toBuf_c1v4, toBuf_v24]
  unfold interpChain
  rfl

/-! ## The boundaries of @main, walked back to the launch memory -/

section Folds
variable (m : (ℓ : Loc nD τ sig) → Buf (Elt F) ℓ) (ρ : Dev nD → PrngReg) (c : Dev nD)

/-- The first region's first input array: the coordinates, channel-major, the batch and point axes flattened. -/
theorem V1_v8 : Gen.V1 m ρ c main_v8
    = shapeCast S3x262144 (transpose S3x4x65536 [2, 0, 1] (m ((c : Thread nD τ).loc main_arg0)) transposes_S4x65536x3_S3x4x65536_2_0_1) shapeCasts_S3x4x65536_S3x262144 :=
  s0_v8 (Gen.W0 m ρ c)

/-- The first region's second input array: the gathered neighbours' coordinates, channel-major, neighbour-major. -/
theorem V1_v10 : Gen.V1 m ρ c main_v10
    = shapeCast S3x16x262144 (transpose S3x16x4x65536 [3, 2, 0, 1] (gathered (m ((c : Thread nD τ).loc main_arg0)) (m ((c : Thread nD τ).loc main_arg1))) transposes_S4x65536x16x3_S3x16x4x65536_3_2_0_1) shapeCasts_S3x16x4x65536_S3x16x262144 :=
  s0_v10 (Gen.W0 m ρ c)

/-- The first result at the return: the first region's output array, reshaped and transposed; nothing later writes it. -/
theorem W9_v13 : Gen.W9 m ρ c (Proc.devRef .tc main_v13)
    = transpose S4x65536x16x10 [2, 3, 1, 0] (shapeCast S10x16x4x65536 ((Gen.dat0 (Gen.V1 m ρ) c).arrAt 2 cfg0.N) shapeCasts_S10x16x262144_S10x16x4x65536) transposes_S10x16x4x65536_S4x65536x16x10_2_3_1_0 :=
  calc Gen.W9 m ρ c (Proc.devRef .tc main_v13)
    _ = Gen.W8 m ρ c (Proc.devRef .tc main_v13) := by keeps_through Gen.hostOps2_2
    _ = Gen.W7 m ρ c (Proc.devRef .tc main_v13) := by keeps_through Gen.hostOps2_1
    _ = Gen.W6 m ρ c (Proc.devRef .tc main_v13) := by keeps_through Gen.hostOps2
    _ = Gen.W5 m ρ c (Proc.devRef .tc main_v13) := Gen.W6_of_ne m ρ c main_v13 (by decide)
    _ = Gen.W4 m ρ c (Proc.devRef .tc main_v13) := by keeps_through Gen.hostOps1_2
    _ = Gen.W3 m ρ c (Proc.devRef .tc main_v13) := by keeps_through Gen.hostOps1_1
    _ = transpose S4x65536x16x10 [2, 3, 1, 0] (shapeCast S10x16x4x65536 (Gen.W2 m ρ c (Proc.devRef .tc main_v11)) shapeCasts_S10x16x262144_S10x16x4x65536) transposes_S10x16x4x65536_S4x65536x16x10_2_3_1_0 := s1_v13 (Gen.W2 m ρ c)
    _ = _ := by
      rw [show Gen.W2 m ρ c (Proc.devRef .tc main_v11) = (Gen.dat0 (Gen.V1 m ρ) c).arrAt 2 cfg0.N from Gen.W2_arr m ρ c 2]

/-- An argument array is as launched when the first region is left. -/
theorem W2_arg2 : Gen.W2 m ρ c (Proc.devRef .tc main_arg2) = m ((c : Thread nD τ).loc main_arg2) :=
  calc Gen.W2 m ρ c (Proc.devRef .tc main_arg2)
    _ = Gen.W1 m ρ c (Proc.devRef .tc main_arg2) := Gen.W2_of_ne m ρ c main_arg2 (by decide)
    _ = Gen.W0 m ρ c (Proc.devRef .tc main_arg2) := by keeps_through Gen.hostOps0
    _ = _ := rfl
theorem W2_arg3 : Gen.W2 m ρ c (Proc.devRef .tc main_arg3) = m ((c : Thread nD τ).loc main_arg3) :=
  calc Gen.W2 m ρ c (Proc.devRef .tc main_arg3)
    _ = Gen.W1 m ρ c (Proc.devRef .tc main_arg3) := Gen.W2_of_ne m ρ c main_arg3 (by decide)
    _ = Gen.W0 m ρ c (Proc.devRef .tc main_arg3) := by keeps_through Gen.hostOps0
    _ = _ := rfl

/-- The second region's input array: the taken features, the neighbour axis moved to the front, batch and channel
    flattened. -/
theorem V5_v19 : Gen.V5 m ρ c main_v19
    = shapeCast S16x128x16384 (transpose S16x4x32x16384 [3, 0, 1, 2] (shapeCast S4x32x16384x16
        (takeChain (shapeCast S4x32x65536 (m ((c : Thread nD τ).loc main_arg2)) shapeCasts_S4x32x65536x1_S4x32x65536)
          (shapeCast S4x1x262144 (m ((c : Thread nD τ).loc main_arg3)) shapeCasts_S4x16384x16_S4x1x262144))
        shapeCasts_S4x32x262144_S4x32x16384x16) transposes_S4x32x16384x16_S16x4x32x16384_3_0_1_2) shapeCasts_S16x4x32x16384_S16x128x16384 := by
  have e16 : Gen.W4 m ρ c (Proc.devRef .tc main_v16)
      = takeChain (Gen.W3 m ρ c (Proc.devRef .tc main_v14)) (Gen.W3 m ρ c (Proc.devRef .tc main_v15)) := s11_v16 (Gen.W3 m ρ c)
  have e14 : Gen.W3 m ρ c (Proc.devRef .tc main_v14) = _ := s1_v14 (Gen.W2 m ρ c)
  have e15 : Gen.W3 m ρ c (Proc.devRef .tc main_v15) = _ := s1_v15 (Gen.W2 m ρ c)
  refine (s12_v19 (Gen.W4 m ρ c)).trans ?_
  rw [e16, e14, e15, W2_arg2 m ρ c, W2_arg3 m ρ c]

/-- The second result at the return: the second region's output array, reshaped; nothing later writes it. -/
theorem W9_v21 : Gen.W9 m ρ c (Proc.devRef .tc main_v21)
    = shapeCast S4x32x16384x1 ((Gen.dat1 (Gen.V5 m ρ) c).arrAt 1 cfg1.N) shapeCasts_S128x16384_S4x32x16384x1 :=
  calc Gen.W9 m ρ c (Proc.devRef .tc main_v21)
    _ = Gen.W8 m ρ c (Proc.devRef .tc main_v21) := by keeps_through Gen.hostOps2_2
    _ = Gen.W7 m ρ c (Proc.devRef .tc main_v21) := by keeps_through Gen.hostOps2_1
    _ = shapeCast S4x32x16384x1 (Gen.W6 m ρ c (Proc.devRef .tc main_v20)) shapeCasts_S128x16384_S4x32x16384x1 := s2_v21 (Gen.W6 m ρ c)
    _ = _ := by
      rw [show Gen.W6 m ρ c (Proc.devRef .tc main_v20) = (Gen.dat1 (Gen.V5 m ρ) c).arrAt 1 cfg1.N from Gen.W6_arr m ρ c 1]

/-- An argument array is as launched when the second region is left. -/
theorem W6_arg4 : Gen.W6 m ρ c (Proc.devRef .tc main_arg4) = m ((c : Thread nD τ).loc main_arg4) :=
  calc Gen.W6 m ρ c (Proc.devRef .tc main_arg4)
    _ = Gen.W5 m ρ c (Proc.devRef .tc main_arg4) := Gen.W6_of_ne m ρ c main_arg4 (by decide)
    _ = Gen.W4 m ρ c (Proc.devRef .tc main_arg4) := by keeps_through Gen.hostOps1_2
    _ = Gen.W3 m ρ c (Proc.devRef .tc main_arg4) := by keeps_through Gen.hostOps1_1
    _ = Gen.W2 m ρ c (Proc.devRef .tc main_arg4) := by keeps_through Gen.hostOps1
    _ = Gen.W1 m ρ c (Proc.devRef .tc main_arg4) := Gen.W2_of_ne m ρ c main_arg4 (by decide)
    _ = Gen.W0 m ρ c (Proc.devRef .tc main_arg4) := by keeps_through Gen.hostOps0
    _ = _ := rfl
theorem W6_arg5 : Gen.W6 m ρ c (Proc.devRef .tc main_arg5) = m ((c : Thread nD τ).loc main_arg5) :=
  calc Gen.W6 m ρ c (Proc.devRef .tc main_arg5)
    _ = Gen.W5 m ρ c (Proc.devRef .tc main_arg5) := Gen.W6_of_ne m ρ c main_arg5 (by decide)
    _ = Gen.W4 m ρ c (Proc.devRef .tc main_arg5) := by keeps_through Gen.hostOps1_2
    _ = Gen.W3 m ρ c (Proc.devRef .tc main_arg5) := by keeps_through Gen.hostOps1_1
    _ = Gen.W2 m ρ c (Proc.devRef .tc main_arg5) := by keeps_through Gen.hostOps1
    _ = Gen.W1 m ρ c (Proc.devRef .tc main_arg5) := Gen.W2_of_ne m ρ c main_arg5 (by decide)
    _ = Gen.W0 m ρ c (Proc.devRef .tc main_arg5) := by keeps_through Gen.hostOps0
    _ = _ := rfl

/-- The third result at the return: the interpolation chain of the two last arguments, a unit axis appended. -/
theorem W9_v25 : Gen.W9 m ρ c (Proc.devRef .tc main_v25)
    = broadcastInDim S4x32x65536x1 ![0, 1, 2] bcast_S4x32x65536_S4x32x65536x1_0_1_2
        (interpChain (shapeCast S4x32x16384 (m ((c : Thread nD τ).loc main_arg4)) shapeCasts_S4x32x16384x1_S4x32x16384)
          (shapeCast S4x1x65536 (m ((c : Thread nD τ).loc main_arg5)) shapeCasts_S4x65536x1_S4x1x65536)) := by
  have e24 : Gen.W8 m ρ c (Proc.devRef .tc main_v24)
      = interpChain (Gen.W7 m ρ c (Proc.devRef .tc main_v22)) (Gen.W7 m ρ c (Proc.devRef .tc main_v23)) := s21_v24 (Gen.W7 m ρ c)
  have e22 : Gen.W7 m ρ c (Proc.devRef .tc main_v22) = _ := s2_v22 (Gen.W6 m ρ c)
  have e23 : Gen.W7 m ρ c (Proc.devRef .tc main_v23) = _ := s2_v23 (Gen.W6 m ρ c)
  refine (s22_v25 (Gen.W8 m ρ c)).trans ?_
  rw [e24, e22, e23, W6_arg4 m ρ c, W6_arg5 m ρ c]

end Folds

end Cert.KernelIdeal.Fold

end
-- ==== Proof.RefChains.lean ====
/-
  The reference program's three index chains (the neighbour gather of the coordinates, the two `take_along_axis` calls
  with their out-of-range masks), named as functions of their operands: the same text as the kernel program's chains,
  over the reference program's own shape records.
-/
import proofs.«135792_j22170621181973_1_alg».proof.Proof.Gen.ReferenceIdeal

noncomputable section

namespace Cert.ReferenceIdeal.Chains

open Cert.ReferenceIdeal Cert.ReferenceIdeal.Facts₀
open Idealize.ShloMosaic Idealize.ShloMosaic.TcCoe Idealize.SL.Sem Idealize.ShloMosaic.StableHlo

variable {F : FTy → Type} [FloatOps F]

/-- The neighbours' coordinates: row `idx` of the point array for each (point, neighbour), a negative index first
    moved up by the number of points. -/
def gathered (x0 : (⟨S4x65536x3, .f32⟩ : BufTy).Contents (Elt F)) (x1 : (⟨S4x65536x16, .i32⟩ : BufTy).Contents (Elt F)) :
    (⟨S4x65536x16x3, .f32⟩ : BufTy).Contents (Elt F) :=
  (Host.gather gather_S4x65536x3_S4x65536x16x1_S4x65536x16x3_3_1_0_0_1_3_113 x0 (broadcastInDim S4x65536x16x1 ![0, 1, 2] bcast_S4x65536x16_S4x65536x16x1_0_1_2 (select (cmpi .slt x1 (broadcastInDim S4x65536x16 ![] bcast_S_S4x65536x16 (constantI S_ 32 0#32))) (addi x1 (broadcastInDim S4x65536x16 ![] bcast_S_S4x65536x16 (constantI S_ 32 65536#32))) x1)))

/-- `take_along_axis` over the 65536 points: the features `a` at the indices `i` along the point axis (a negative index
    first moved up by the axis length), an entry whose index is outside the axis replaced by the not-a-number pattern. -/
def takeChain (a : (⟨S4x32x65536, .f32⟩ : BufTy).Contents (Elt F)) (i : (⟨S4x1x262144, .i32⟩ : BufTy).Contents (Elt F)) :
    (⟨S4x32x262144, .f32⟩ : BufTy).Contents (Elt F) :=
  (select (broadcastInDim S4x32x262144 ![0, 2] bcast_S4x262144_S4x32x262144_0_2 (Host.reduce IntOp.andi (andi (cmpi .sge (shapeCast _ (select (cmpi .slt i (broadcastInDim S4x1x262144 ![] bcast_S_S4x1x262144 (constantI S_ 32 0#32))) (addi i (broadcastInDim S4x1x262144 ![] bcast_S_S4x1x262144 (constantI S_ 32 65536#32))) i) shapeCasts_S4x1x262144_S4x262144x1) (broadcastInDim S4x262144x1 ![] bcast_S_S4x262144x1 (constantI S_ 32 0#32))) (cmpi .sle (shapeCast _ (select (cmpi .slt i (broadcastInDim S4x1x262144 ![] bcast_S_S4x1x262144 (constantI S_ 32 0#32))) (addi i (broadcastInDim S4x1x262144 ![] bcast_S_S4x1x262144 (constantI S_ 32 65536#32))) i) shapeCasts_S4x1x262144_S4x262144x1) (broadcastInDim S4x262144x1 ![0, 1, 2] bcast_S1x1x1_S4x262144x1_0_1_2 (broadcastInDim S1x1x1 ![2] bcast_S1_S1x1x1_2 (constantI S1 32 65535#32))))) (constantI S_ 1 1#1) reducesTo_S4x262144x1_S4x262144_d2 h_S_)) (Host.gather gather_S4x32x65536_S4x262144x1_S4x32x262144_1_2_0_0_2_2_1321 a (shapeCast _ (select (cmpi .slt i (broadcastInDim S4x1x262144 ![] bcast_S_S4x1x262144 (constantI S_ 32 0#32))) (addi i (broadcastInDim S4x1x262144 ![] bcast_S_S4x1x262144 (constantI S_ 32 65536#32))) i) shapeCasts_S4x1x262144_S4x262144x1)) (broadcastInDim S4x32x262144 ![] bcast_S_S4x32x262144 (constant S_ .f32 0x7FC00000#32)))

/-- `take_along_axis` over the 16384 pooled points, in the same way. -/
def interpChain (a : (⟨S4x32x16384, .f32⟩ : BufTy).Contents (Elt F)) (i : (⟨S4x1x65536, .i32⟩ : BufTy).Contents (Elt F)) :
    (⟨S4x32x65536, .f32⟩ : BufTy).Contents (Elt F) :=
  (select (broadcastInDim S4x32x65536 ![0, 2] bcast_S4x65536_S4x32x65536_0_2 (Host.reduce IntOp.andi (andi (cmpi .sge (shapeCast _ (select (cmpi .slt i (broadcastInDim S4x1x65536 ![] bcast_S_S4x1x65536 (constantI S_ 32 0#32))) (addi i (broadcastInDim S4x1x65536 ![] bcast_S_S4x1x65536 (constantI S_ 32 16384#32))) i) shapeCasts_S4x1x65536_S4x65536x1) (broadcastInDim S4x65536x1 ![] bcast_S_S4x65536x1 (constantI S_ 32 0#32))) (cmpi .sle (shapeCast _ (select (cmpi .slt i (broadcastInDim S4x1x65536 ![] bcast_S_S4x1x65536 (constantI S_ 32 0#32))) (addi i (broadcastInDim S4x1x65536 ![] bcast_S_S4x1x65536 (constantI S_ 32 16384#32))) i) shapeCasts_S4x1x65536_S4x65536x1) (broadcastInDim S4x65536x1 ![0, 1, 2] bcast_S1x1x1_S4x65536x1_0_1_2 (broadcastInDim S1x1x1 ![2] bcast_S1_S1x1x1_2 (constantI S1 32 16383#32))))) (constantI S_ 1 1#1) reducesTo_S4x65536x1_S4x65536_d2 h_S_)) (Host.gather gather_S4x32x16384_S4x65536x1_S4x32x65536_1_2_0_0_2_2_1321 a (shapeCast _ (select (cmpi .slt i (broadcastInDim S4x1x65536 ![] bcast_S_S4x1x65536 (constantI S_ 32 0#32))) (addi i (broadcastInDim S4x1x65536 ![] bcast_S_S4x1x65536 (constantI S_ 32 16384#32))) i) shapeCasts_S4x1x65536_S4x65536x1)) (broadcastInDim S4x32x65536 ![] bcast_S_S4x32x65536 (constant S_ .f32 0x7FC00000#32)))

end Cert.ReferenceIdeal.Chains

end
-- ==== Proof.RefOut.lean ====
/-
  The reference program's three results as functions of its operands, over the named index chains: the relative
  position encoding of the coordinates and the gathered neighbours (distance, difference, point, neighbour along the
  last axis), the maximum over the sixteen taken neighbours, and the interpolation chain with a unit axis appended.
-/
import proofs.«135792_j22170621181973_1_alg».proof.Proof.RefChains

noncomputable section

namespace Cert.ReferenceIdeal.Chains

open Cert.ReferenceIdeal Cert.ReferenceIdeal.Facts₀
open Idealize.ShloMosaic Idealize.ShloMosaic.TcCoe Idealize.SL.Sem Idealize.ShloMosaic.StableHlo

variable {F : FTy → Type} [FloatOps F]

/-- The relative position encoding of the points `x0` against gathered neighbours `g`. -/
def relTerm (x0 : (⟨S4x65536x3, .f32⟩ : BufTy).Contents (Elt F)) (g : (⟨S4x65536x16x3, .f32⟩ : BufTy).Contents (Elt F)) :
    (⟨S4x65536x16x10, .f32⟩ : BufTy).Contents (Elt F) :=
  concatenate S4x65536x16x10 3 [⟨S4x65536x16x1, (Host.sqrt (broadcastInDim S4x65536x16x1 ![0, 1, 2] bcast_S4x65536x16_S4x65536x16x1_0_1_2 (Host.reduceAdd (mulf (subf (broadcastInDim S4x65536x16x3 ![0, 1, 2, 3] bcast_S4x65536x1x3_S4x65536x16x3_0_1_2_3 (broadcastInDim S4x65536x1x3 ![0, 1, 3] bcast_S4x65536x3_S4x65536x1x3_0_1_3 x0)) g) (subf (broadcastInDim S4x65536x16x3 ![0, 1, 2, 3] bcast_S4x65536x1x3_S4x65536x16x3_0_1_2_3 (broadcastInDim S4x65536x1x3 ![0, 1, 3] bcast_S4x65536x3_S4x65536x1x3_0_1_3 x0)) g)) (constant S_ .f32 0x00000000#32) reducesTo_S4x65536x16x3_S4x65536x16_d3 h_S_)))⟩, ⟨S4x65536x16x3, (subf (broadcastInDim S4x65536x16x3 ![0, 1, 2, 3] bcast_S4x65536x1x3_S4x65536x16x3_0_1_2_3 (broadcastInDim S4x65536x1x3 ![0, 1, 3] bcast_S4x65536x3_S4x65536x1x3_0_1_3 x0)) g)⟩, ⟨S4x65536x16x3, (broadcastInDim S4x65536x16x3 ![0, 1, 2, 3] bcast_S4x65536x1x3_S4x65536x16x3_0_1_2_3 (broadcastInDim S4x65536x1x3 ![0, 1, 3] bcast_S4x65536x3_S4x65536x1x3_0_1_3 x0))⟩, ⟨S4x65536x16x3, g⟩] concatenates_S4x65536x16x1_S4x65536x16x3_S4x65536x16x3_S4x65536x16x3_S4x65536x16x10_d3

/-- The maximum over the sixteen neighbours of the taken features `t`, a unit axis appended. -/
def poolTerm (t : (⟨S4x32x262144, .f32⟩ : BufTy).Contents (Elt F)) : (⟨S4x32x16384x1, .f32⟩ : BufTy).Contents (Elt F) :=
  broadcastInDim S4x32x16384x1 ![0, 1, 2] bcast_S4x32x16384_S4x32x16384x1_0_1_2 (Host.reduce FloatOps.maximumf (shapeCast _ t shapeCasts_S4x32x262144_S4x32x16384x16) (constant S_ .f32 0xFF800000#32) reducesTo_S4x32x16384x16_S4x32x16384_d3 h_S_)

/-- A unit axis appended to the interpolated features `u`. -/
def interpTerm (u : (⟨S4x32x65536, .f32⟩ : BufTy).Contents (Elt F)) : (⟨S4x32x65536x1, .f32⟩ : BufTy).Contents (Elt F) :=
  broadcastInDim S4x32x65536x1 ![0, 1, 2] bcast_S4x32x65536_S4x32x65536x1_0_1_2 u

/-- The three results of the reference, of its six arguments. -/
def out0 (x0 : (⟨S4x65536x3, .f32⟩ : BufTy).Contents (Elt F)) (x1 : (⟨S4x65536x16, .i32⟩ : BufTy).Contents (Elt F)) :=
  relTerm x0 (gathered x0 x1)
def out1 (x2 : (⟨S4x32x65536x1, .f32⟩ : BufTy).Contents (Elt F)) (x3 : (⟨S4x16384x16, .i32⟩ : BufTy).Contents (Elt F)) :=
  poolTerm (takeChain (shapeCast S4x32x65536 x2 shapeCasts_S4x32x65536x1_S4x32x65536) (shapeCast S4x1x262144 x3 shapeCasts_S4x16384x16_S4x1x262144))
def out2 (x4 : (⟨S4x32x16384x1, .f32⟩ : BufTy).Contents (Elt F)) (x5 : (⟨S4x65536x1, .i32⟩ : BufTy).Contents (Elt F)) :=
  interpTerm (interpChain (shapeCast S4x32x16384 x4 shapeCasts_S4x32x16384x1_S4x32x16384) (shapeCast S4x1x65536 x5 shapeCasts_S4x65536x1_S4x1x65536))

end Cert.ReferenceIdeal.Chains

end
-- ==== Proof.RelSpec.lean ====
/- The relative-position encoding, as a specification: what each entry of the [10,16,262144] output of the first
   kernel region is, as a function of the point's three coordinates and of the neighbour's three coordinates.

   For a lane L (a point) and a neighbour slot k, write x c = X(c, L) for the point's coordinate c and y c = Y(c, k, L)
   for the neighbour's. The ten channels of the output at (·, k, L) are, in order:
     channel 0        the distance  sqrt (Σ_{c<3} (x c − y c)·(x c − y c)),
     channels 1,2,3   the relative position  x c − y c   (c = channel − 1),
     channels 4,5,6   the point itself       x c         (c = channel − 4),
     channels 7,8,9   the neighbour          y c         (c = channel − 7).
   `relChan` is this function of (x, y, channel); `relOf X Y` is the output array, index by index. The square root is
   the ideal one (`Ideal.sqrt`), the sum and products are those of the extended reals. -/
import proofs.«135792_j22170621181973_1_alg».proof.KernelIdeal
import Idealize.ShloMosaic.PureOps.Ideal
import Idealize.ShloMosaic.Lib.ValueIdx

noncomputable section

namespace Cert.KernelIdeal.RelValue

open Idealize.ShloMosaic Idealize.ShloMosaic.ValueIdx
open scoped BigOperators

/-- One output channel from the point's coordinates `x` and the neighbour's coordinates `y`: the distance, then the
    three differences, then the point, then the neighbour. -/
def relChan (x y : Fin 3 → EReal) (ch : Fin 10) : EReal :=
  if h0 : ch.val = 0 then Ideal.sqrt (∑ c : Fin 3, (x c - y c) * (x c - y c))
  else if h1 : ch.val < 4 then x ⟨ch.val - 1, by omega⟩ - y ⟨ch.val - 1, by omega⟩
  else if h2 : ch.val < 7 then x ⟨ch.val - 4, by omega⟩
  else y ⟨ch.val - 7, by omega⟩

/-- Channel 0 is the distance. -/
theorem relChan_dist (x y : Fin 3 → EReal) (ch : Fin 10) (h : ch.val = 0) :
    relChan x y ch = Ideal.sqrt (∑ c : Fin 3, (x c - y c) * (x c - y c)) := by
  unfold relChan; rw [dif_pos h]

/-- Channels 1, 2, 3 are the differences. -/
theorem relChan_rel (x y : Fin 3 → EReal) (ch : Fin 10) (c : Fin 3) (h : ch.val = c.val + 1) :
    relChan x y ch = x c - y c := by
  unfold relChan
  rw [dif_neg (by omega), dif_pos (by omega)]
  have e : (⟨ch.val - 1, by omega⟩ : Fin 3) = c := Fin.ext (by show ch.val - 1 = c.val; omega)
  rw [e]

/-- Channels 4, 5, 6 are the point. -/
theorem relChan_tile (x y : Fin 3 → EReal) (ch : Fin 10) (c : Fin 3) (h : ch.val = c.val + 4) :
    relChan x y ch = x c := by
  unfold relChan
  rw [dif_neg (by omega), dif_neg (by omega), dif_pos (by omega)]
  have e : (⟨ch.val - 4, by omega⟩ : Fin 3) = c := Fin.ext (by show ch.val - 4 = c.val; omega)
  rw [e]

/-- Channels 7, 8, 9 are the neighbour. -/
theorem relChan_nbr (x y : Fin 3 → EReal) (ch : Fin 10) (c : Fin 3) (h : ch.val = c.val + 7) :
    relChan x y ch = y c := by
  unfold relChan
  rw [dif_neg (by omega), dif_neg (by omega), dif_neg (by omega)]
  have e : (⟨ch.val - 7, by omega⟩ : Fin 3) = c := Fin.ext (by show ch.val - 7 = c.val; omega)
  rw [e]

/-- Every channel is one of the four kinds. -/
theorem chan_cases (ch : Fin 10) :
    ch.val = 0 ∨ (∃ c : Fin 3, ch.val = c.val + 1) ∨ (∃ c : Fin 3, ch.val = c.val + 4) ∨ (∃ c : Fin 3, ch.val = c.val + 7) := by
  have h := ch.isLt
  by_cases h0 : ch.val = 0
  · exact Or.inl h0
  by_cases h1 : ch.val < 4
  · exact Or.inr (Or.inl ⟨⟨ch.val - 1, by omega⟩, by show ch.val = ch.val - 1 + 1; omega⟩)
  by_cases h2 : ch.val < 7
  · exact Or.inr (Or.inr (Or.inl ⟨⟨ch.val - 4, by omega⟩, by show ch.val = ch.val - 4 + 4; omega⟩))
  · exact Or.inr (Or.inr (Or.inr ⟨⟨ch.val - 7, by omega⟩, by show ch.val = ch.val - 7 + 7; omega⟩))

/-- The region's output array: at (channel, k, L), channel `channel` of the encoding of point `L` (coordinates
    `X(·, L)`) against its neighbour `k` (coordinates `Y(·, k, L)`). -/
def relOf (X : FVec Ideal S3x262144 .f32) (Y : FVec Ideal S3x16x262144 .f32) : FVec Ideal S10x16x262144 .f32 :=
  fun j => relChan (fun c => X (ix2 c (j 2))) (fun c => Y (ix3 c (j 1) (j 2))) (j 0)

/-- `relOf` at an index written by its coordinates. -/
theorem relOf_ix3 (X : FVec Ideal S3x262144 .f32) (Y : FVec Ideal S3x16x262144 .f32) (ch : Fin 10) (k : Fin 16) (L : Fin 262144) :
    relOf X Y (ix3 ch k L) = relChan (fun c => X (ix2 c L)) (fun c => Y (ix3 c k L)) ch := rfl

end Cert.KernelIdeal.RelValue

end
-- ==== Proof.RelPayload.lean ====
/- The first kernel region's body, read at an index: the block [10,16,16384] that one grid point stores is, at
   (channel, k, l), channel `channel` of the encoding (`relChan`) of the block's point `l` — coordinates x0(·, l) of
   the loaded [3,16384] block — against its neighbour `k` — coordinates x1(·, k, l) of the loaded [3,16,16384] block.

   The body's arithmetic, as one pure term of the two loaded blocks (the payload): the point block is broadcast over the
   16 neighbour slots (`tileB`), the neighbour block is subtracted from it (`relB`), the squares are summed over the
   coordinate axis and the square root taken (`distB`), and the four are joined along the channel axis. Each piece is
   read at an index; the join is read piece by piece according to the channel. -/
import proofs.«135792_j22170621181973_1_alg».proof.Proof.Gen.KernelIdeal.Skeleton
import proofs.«135792_j22170621181973_1_alg».proof.Proof.RelSpec
import Idealize.ShloMosaic.Lib.Pipeline.Value
import Idealize.ShloMosaic.Lib.ValueLayout
import Idealize.ShloMosaic.PureOps.Ideal.Laws

noncomputable section

namespace Cert.KernelIdeal.RelValue

open Idealize.ShloMosaic Idealize.ShloMosaic.ValueIdx Cert.KernelIdeal Cert.KernelIdeal.Gen
open scoped BigOperators

/-! ## The pieces of the payload -/

/-- The point block [3,16384] broadcast over the 16 neighbour slots: [3,16,16384]. -/
def tileB (x0 : Vec Ideal S3x16384 .f32) : FVec Ideal S3x16x16384 .f32 :=
  broadcastTo S3x16x16384 (shapeCast S3x1x16384 (shapeCast S3x1x16384 (shapeCast S3x16384 x0 shapeCasts_S3x16384_S3x16384)
    shapeCasts_S3x16384_S3x1x16384) shapeCasts_S3x1x16384_S3x1x16384) broadcasts_S3x1x16384_S3x16x16384

/-- The neighbour block as loaded. -/
def nbrB (x1 : Vec Ideal S3x16x16384 .f32) : FVec Ideal S3x16x16384 .f32 :=
  shapeCast S3x16x16384 x1 shapeCasts_S3x16x16384_S3x16x16384

/-- The relative positions: the broadcast point block less the neighbour block. -/
def relB (x0 : Vec Ideal S3x16384 .f32) (x1 : Vec Ideal S3x16x16384 .f32) : FVec Ideal S3x16x16384 .f32 :=
  subf (tileB x0) (nbrB x1)

/-- The distances: the squares of the relative positions summed over the coordinate axis, then the square root. -/
def distB (x0 : Vec Ideal S3x16384 .f32) (x1 : Vec Ideal S3x16x16384 .f32) : FVec Ideal S1x16x16384 .f32 :=
  sqrt (shapeCast S1x16x16384 (multiReduction .add [0] S16x16384 (mulf (relB x0 x1) (relB x0 x1)) 0x00000000#32
    reduces_S3x16x16384_S16x16384 (.inl rfl) rfl) shapeCasts_S16x16384_S1x16x16384)

/-- The payload is the join of the four pieces along the channel axis. -/
theorem pay_eq (x0 : Vec Ideal S3x16384 .f32) (x1 : Vec Ideal S3x16x16384 .f32) :
    k0_pay1 (F := Ideal) x0 x1 = concatenate S10x16x16384 0 [⟨S1x16x16384, distB x0 x1⟩, ⟨S3x16x16384, relB x0 x1⟩,
      ⟨S3x16x16384, tileB x0⟩, ⟨S3x16x16384, nbrB x1⟩]
      concatenates_S1x16x16384_S3x16x16384_S3x16x16384_S3x16x16384_S10x16x16384_d0 := rfl

/-! ## Each piece at an index -/

/-- The broadcast point block at (c, k, l) is the point block at (c, l): the neighbour slot is not read. -/
theorem tileB_apply (x0 : Vec Ideal S3x16384 .f32) (c : Fin 3) (k : Fin 16) (l : Fin 16384) :
    tileB x0 (ix3 c k l) = x0 (ix2 c l) := by
  unfold tileB
  rw [shapeCast_self, shapeCast_self]
  refine (broadcastTo_apply _ broadcasts_S3x1x16384_S3x16x16384 (ix3 c k l) (ix3 c (0 : Fin 1) l) (fun a => ?_)).trans ?_
  · match a with
    | ⟨0, _⟩ => rfl
    | ⟨1, _⟩ => rfl
    | ⟨2, _⟩ => rfl
  · exact shapeCast_apply x0 shapeCasts_S3x16384_S3x1x16384 (ix3 c (0 : Fin 1) l) (ix2 c l) (by
      rw [Shape.rowMajor_val_two, Shape.rowMajor_val_three]
      show c.val * 16384 + l.val = (c.val * 1 + 0) * 16384 + l.val
      omega)

/-- The neighbour block at an index is the loaded block there. -/
theorem nbrB_apply (x1 : Vec Ideal S3x16x16384 .f32) (c : Fin 3) (k : Fin 16) (l : Fin 16384) :
    nbrB x1 (ix3 c k l) = x1 (ix3 c k l) := by
  unfold nbrB
  rw [shapeCast_self]

/-- The relative position at (c, k, l). -/
theorem relB_apply (x0 : Vec Ideal S3x16384 .f32) (x1 : Vec Ideal S3x16x16384 .f32) (c : Fin 3) (k : Fin 16) (l : Fin 16384) :
    relB x0 x1 (ix3 c k l) = x0 (ix2 c l) - x1 (ix3 c k l) := by
  unfold relB
  rw [subf_apply, tileB_apply, nbrB_apply]

/-- The square root of a vector, at an index, is the ideal square root of the entry. -/
theorem sqrt_apply {s : Shape} {φ : FTy} (v : FVec Ideal s φ) (i : s.Idx) : sqrt v i = Ideal.sqrt (v i) := rfl

/-- The distance at (0, k, l): the sum over the coordinate axis of a multi-reduction over axis 0 is the sum over
    `Fin 3` of the source at (c, k, l). -/
theorem distB_apply (x0 : Vec Ideal S3x16384 .f32) (x1 : Vec Ideal S3x16x16384 .f32) (u : Fin 1) (k : Fin 16) (l : Fin 16384) :
    distB x0 x1 (ix3 u k l)
      = Ideal.sqrt (∑ c : Fin 3, (x0 (ix2 c l) - x1 (ix3 c k l)) * (x0 (ix2 c l) - x1 (ix3 c k l))) := by
  unfold distB
  rw [sqrt_apply]
  refine congrArg Ideal.sqrt ?_
  refine (shapeCast_ab_1ab_apply _ shapeCasts_S16x16384_S1x16x16384 u k l).trans ?_
  refine (Ideal.multiReduction_add_single _ _ reduces_S3x16x16384_S16x16384 _ _ (ix2 k l)).trans ?_
  show ∑ c : Fin 3, mulf (relB x0 x1) (relB x0 x1) (reduces_S3x16x16384_S16x16384.lift (ix2 k l) c) = _
  refine Finset.sum_congr rfl fun c _ => ?_
  have e : reduces_S3x16x16384_S16x16384.lift (ix2 k l) c = ix3 c k l :=
    funext fun a => Fin.ext (by match a with | ⟨0, _⟩ => rfl | ⟨1, _⟩ => rfl | ⟨2, _⟩ => rfl)
  rw [e, mulf_apply, relB_apply]

/-! ## The payload at an index -/

/-- The stored block at (channel, k, l) is the encoding of the block's point `l` against its neighbour `k`. -/
theorem pay_apply (x0 : Vec Ideal S3x16384 .f32) (x1 : Vec Ideal S3x16x16384 .f32) (ch : Fin 10) (k : Fin 16) (l : Fin 16384) :
    k0_pay1 (F := Ideal) x0 x1 (ix3 ch k l) = relChan (fun c => x0 (ix2 c l)) (fun c => x1 (ix3 c k l)) ch := by
  rw [pay_eq]
  rcases chan_cases ch with h | ⟨c, h⟩ | ⟨c, h⟩ | ⟨c, h⟩
  · rw [relChan_dist _ _ ch h]
    refine (concatenate_apply_piece (0 : Fin 3) _ _ (ix3 ch k l) 0 ?_ S1x16x16384 (distB x0 x1) ?_ rfl 0 ?_
      (ix3 (0 : Fin 1) k l) (fun b hb => ?_) ?_).trans (distB_apply x0 x1 0 k l)
    · exact (by decide : (0 : Nat) < 4)
    · rfl
    · rfl
    · match b, hb with
      | ⟨0, _⟩, hb => exact absurd rfl hb
      | ⟨1, _⟩, _ => rfl
      | ⟨2, _⟩, _ => rfl
    · show 0 + 0 = ch.val
      omega
  · rw [relChan_rel _ _ ch c h]
    refine (concatenate_apply_piece (0 : Fin 3) _ _ (ix3 ch k l) 1 ?_ S3x16x16384 (relB x0 x1) ?_ rfl 1 ?_
      (ix3 c k l) (fun b hb => ?_) ?_).trans (relB_apply x0 x1 c k l)
    · exact (by decide : (1 : Nat) < 4)
    · rfl
    · rfl
    · match b, hb with
      | ⟨0, _⟩, hb => exact absurd rfl hb
      | ⟨1, _⟩, _ => rfl
      | ⟨2, _⟩, _ => rfl
    · show 1 + c.val = ch.val
      omega
  · rw [relChan_tile _ _ ch c h]
    refine (concatenate_apply_piece (0 : Fin 3) _ _ (ix3 ch k l) 2 ?_ S3x16x16384 (tileB x0) ?_ rfl 4 ?_
      (ix3 c k l) (fun b hb => ?_) ?_).trans (tileB_apply x0 c k l)
    · exact (by decide : (2 : Nat) < 4)
    · rfl
    · rfl
    · match b, hb with
      | ⟨0, _⟩, hb => exact absurd rfl hb
      | ⟨1, _⟩, _ => rfl
      | ⟨2, _⟩, _ => rfl
    · show 4 + c.val = ch.val
      omega
  · rw [relChan_nbr _ _ ch c h]
    refine (concatenate_apply_piece (0 : Fin 3) _ _ (ix3 ch k l) 3 ?_ S3x16x16384 (nbrB x1) ?_ rfl 7 ?_
      (ix3 c k l) (fun b hb => ?_) ?_).trans (nbrB_apply x1 c k l)
    · exact (by decide : (3 : Nat) < 4)
    · rfl
    · rfl
    · match b, hb with
      | ⟨0, _⟩, hb => exact absurd rfl hb
      | ⟨1, _⟩, _ => rfl
      | ⟨2, _⟩, _ => rfl
    · show 7 + c.val = ch.val
      omega

end Cert.KernelIdeal.RelValue

end
-- ==== Proof.RelArray.lean ====
/- From blocks to the array, for the first kernel region. The region's grid has 16 points; point t reads lanes
   16384·t … 16384·t + 16383 of X : [3,262144] and of Y : [3,16,262144] and writes back the same lanes of the
   [10,16,262144] output. What point t writes back is block t of `relOf X Y` (the body's payload read at an index,
   each loaded block's entry being the array's entry 16384·t lanes further on); the 16 blocks tile the lane axis, so the
   array after the region is `relOf X Y`, for any contents `V` the region is entered with. -/
import proofs.«135792_j22170621181973_1_alg».proof.Proof.Gen.KernelIdeal.Frame
import proofs.«135792_j22170621181973_1_alg».proof.Proof.RelPayload
import Idealize.ShloMosaic.Lib.Pipeline.Value

set_option maxRecDepth 16384

noncomputable section

namespace Cert.KernelIdeal.RelValue

open Idealize.ShloMosaic Idealize.ShloMosaic.TcCoe Idealize.SL.Sem Idealize.ShloMosaic.ValueIdx
open Idealize.ShloMosaic.Pipeline (Dat)
open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: every window's block index is 0 on each axis but the lane axis, where it is
    the point's number. -/
theorem idx_facts : ∀ t : Fin cfg0.N,
    win0_0.index t (0 : Fin 2) = 0 ∧ win0_0.index t (1 : Fin 2) = t.val
    ∧ win0_1.index t (0 : Fin 3) = 0 ∧ win0_1.index t (1 : Fin 3) = 0 ∧ win0_1.index t (2 : Fin 3) = t.val
    ∧ win0_2.index t (0 : Fin 3) = 0 ∧ win0_2.index t (1 : Fin 3) = 0 ∧ win0_2.index t (2 : Fin 3) = t.val :=
  (by decide +kernel : ∀ t : Fin grid0.N, _)

/-- One stored entry against one array entry: if the output index `i` is the block index `y` moved `T` blocks along the
    lane axis, and each loaded block's entry is the corresponding array's entry `T` blocks along, the payload at `y` is
    `relOf` of the arrays at `i`. -/
theorem block_point (x0 : Vec Ideal S3x16384 .f32) (x1 : Vec Ideal S3x16x16384 .f32)
    (X : FVec Ideal S3x262144 .f32) (Y : FVec Ideal S3x16x262144 .f32)
    (y : S10x16x16384.Idx) (i : S10x16x262144.Idx) (T : Nat)
    (hi0 : (i 0).val = (y 0).val) (hi1 : (i 1).val = (y 1).val) (hi2 : (i 2).val = T * 16384 + (y 2).val)
    (hx0 : ∀ (p : S3x16384.Idx) (q : S3x262144.Idx), (q 0).val = (p 0).val → (q 1).val = T * 16384 + (p 1).val → x0 p = X q)
    (hx1 : ∀ (p : S3x16x16384.Idx) (q : S3x16x262144.Idx), (q 0).val = (p 0).val → (q 1).val = (p 1).val →
      (q 2).val = T * 16384 + (p 2).val → x1 p = Y q) :
    k0_pay1 (F := Ideal) x0 x1 y = relOf X Y i := by
  obtain ⟨ch, k, l, rfl⟩ : ∃ (ch : Fin 10) (k : Fin 16) (l : Fin 16384), y = ix3 ch k l := ⟨y 0, y 1, y 2, eq_ix3 y⟩
  obtain ⟨ch', k', L, rfl⟩ : ∃ (ch' : Fin 10) (k' : Fin 16) (L : Fin 262144), i = ix3 ch' k' L := ⟨i 0, i 1, i 2, eq_ix3 i⟩
  obtain rfl : ch' = ch := Fin.ext hi0
  obtain rfl : k' = k := Fin.ext hi1
  have hL : L.val = T * 16384 + l.val := hi2
  rw [pay_apply, relOf_ix3]
  have e0 : (fun c : Fin 3 => x0 (ix2 c l)) = fun c : Fin 3 => X (ix2 c L) :=
    funext fun c => hx0 (ix2 c l) (ix2 c L) rfl hL
  have e1 : (fun c : Fin 3 => x1 (ix3 c k' l)) = fun c : Fin 3 => Y (ix3 c k' L) :=
    funext fun c => hx1 (ix3 c k' l) (ix3 c k' L) rfl rfl hL
  rw [e0, e1]

section Region
variable (V : (c : Dev nD) → (b : Ref sig .tc) → Buf (Elt Ideal) ((c : Thread nD τ).loc b))

/-- Input window 0's block at point `t` is lanes 16384·t … of X. -/
theorem iblk0_0_apply (c : Dev nD) (t : Fin cfg0.N) (p : S3x16384.Idx) (q : S3x262144.Idx)
    (h0 : (q 0).val = (p 0).val) (h1 : (q 1).val = t.val * 16384 + (p 1).val) :
    (iblk0 V c 0 t : Vec Ideal S3x16384 .f32) p = (V c main_v8 : S3x262144.Idx → Elt Ideal .f32) q := by
  obtain ⟨e0, e1, -⟩ := idx_facts t
  unfold iblk0
  rw [View.read_apply]
  show V c main_v8 _ = V c main_v8 _
  congr 1
  funext a
  apply Fin.ext
  match a with
  | ⟨0, _⟩ => show win0_0.index t (0 : Fin 2) * 3 + 1 * (p 0).val = (q 0).val; rw [e0, h0]; omega
  | ⟨1, _⟩ => show win0_0.index t (1 : Fin 2) * 16384 + 1 * (p 1).val = (q 1).val; rw [e1, h1]; omega

/-- Input window 1's block at point `t` is lanes 16384·t … of Y. -/
theorem iblk0_1_apply (c : Dev nD) (t : Fin cfg0.N) (p : S3x16x16384.Idx) (q : S3x16x262144.Idx)
    (h0 : (q 0).val = (p 0).val) (h1 : (q 1).val = (p 1).val) (h2 : (q 2).val = t.val * 16384 + (p 2).val) :
    (iblk0 V c 1 t : Vec Ideal S3x16x16384 .f32) p = (V c main_v10 : S3x16x262144.Idx → Elt Ideal .f32) q := by
  obtain ⟨-, -, e0, e1, e2, -⟩ := idx_facts t
  unfold iblk0
  rw [View.read_apply]
  show V c main_v10 _ = V c main_v10 _
  congr 1
  funext a
  apply Fin.ext
  match a with
  | ⟨0, _⟩ => show win0_1.index t (0 : Fin 3) * 3 + 1 * (p 0).val = (q 0).val; rw [e0, h0]; omega
  | ⟨1, _⟩ => show win0_1.index t (1 : Fin 3) * 16 + 1 * (p 1).val = (q 1).val; rw [e1, h1]; omega
  | ⟨2, _⟩ => show win0_1.index t (2 : Fin 3) * 16384 + 1 * (p 2).val = (q 2).val; rw [e2, h2]; omega

/-- WHAT POINT `t` WRITES BACK is block `t` of `relOf` of the two operand arrays as the region finds them. -/
theorem flushed_eq (c : Dev nD) (t : Fin cfg0.N) :
    (dat0 V c).flushed 2 t = ((cfg0.win 2).blk t).view.read (Elt Ideal) (relOf (V c main_v8) (V c main_v10)) := by
  show (cfg0.win 2).cut (grid0.coords t) ((dat0 V c).after 2 t) = _
  rw [after0_2]
  unfold out0_2
  rw [View.canon_unit_zero hz3]
  simp only [View.ld_unit_zero (S := S3x16384) hz2, View.ld_unit_zero (S := S3x16x16384) hz3]
  obtain ⟨-, -, -, -, -, e0, e1, e2⟩ := idx_facts t
  funext j
  rw [View.read_apply]
  refine block_point (iblk0 V c 0 t) (iblk0 V c 1 t) (V c main_v8) (V c main_v10) j (((cfg0.win 2).blk t).view.emb j) t.val
    ?_ ?_ ?_ (fun p q h0 h1 => iblk0_0_apply V c t p q h0 h1) (fun p q h0 h1 h2 => iblk0_1_apply V c t p q h0 h1 h2)
  · show win0_2.index t (0 : Fin 3) * 10 + 1 * (j 0).val = (j 0).val; rw [e0]; omega
  · show win0_2.index t (1 : Fin 3) * 16 + 1 * (j 1).val = (j 1).val; rw [e1]; omega
  · show win0_2.index t (2 : Fin 3) * 16384 + 1 * (j 2).val = t.val * 16384 + (j 2).val; rw [e2]; omega

/-- An index of the output array is in point `t`'s block iff each coordinate is in the block's range on its axis. -/
theorem mem_blk (t : Fin cfg0.N) (i : S10x16x262144.Idx) :
    i ∈ ((cfg0.win 2).blk t).view.set ↔ ∀ a : Fin 3, win0_2.index t a * S10x16x16384.size a ≤ (i a).val
      ∧ (i a).val < win0_2.index t a * S10x16x16384.size a + S10x16x16384.size a := by
  show i ∈ ((View.whole main_v11).slice (win0_2.rect t)).set ↔ _
  rw [View.set_slice_whole, Rect.mem_set_unit]
  exact Iff.rfl

/-- The 16 blocks tile the lane axis: lane L is in the block of point L / 16384. -/
theorem covered (i : S10x16x262144.Idx) :
    ∃ t : Fin cfg0.N, (cfg0.win 2).flush t = true ∧ i ∈ ((cfg0.win 2).blk t).view.set := by
  have hN : cfg0.N = 16 := N_0
  have h0 : (i 0).val < 10 := (i 0).isLt
  have h1 : (i 1).val < 16 := (i 1).isLt
  have h2 : (i 2).val < 262144 := (i 2).isLt
  have ht : (i 2).val / 16384 < cfg0.N := by rw [hN]; omega
  refine ⟨⟨(i 2).val / 16384, ht⟩, flush0_2 _, ?_⟩
  obtain ⟨-, -, -, -, -, e0, e1, e2⟩ := idx_facts ⟨(i 2).val / 16384, ht⟩
  rw [mem_blk]
  intro a
  match a with
  | ⟨0, _⟩ =>
    show win0_2.index ⟨(i 2).val / 16384, ht⟩ (0 : Fin 3) * 10 ≤ (i 0).val
      ∧ (i 0).val < win0_2.index ⟨(i 2).val / 16384, ht⟩ (0 : Fin 3) * 10 + 10
    rw [e0]; omega
  | ⟨1, _⟩ =>
    show win0_2.index ⟨(i 2).val / 16384, ht⟩ (1 : Fin 3) * 16 ≤ (i 1).val
      ∧ (i 1).val < win0_2.index ⟨(i 2).val / 16384, ht⟩ (1 : Fin 3) * 16 + 16
    rw [e1]; omega
  | ⟨2, _⟩ =>
    show win0_2.index ⟨(i 2).val / 16384, ht⟩ (2 : Fin 3) * 16384 ≤ (i 2).val
      ∧ (i 2).val < win0_2.index ⟨(i 2).val / 16384, ht⟩ (2 : Fin 3) * 16384 + 16384
    rw [e2]
    show (i 2).val / 16384 * 16384 ≤ (i 2).val ∧ (i 2).val < (i 2).val / 16384 * 16384 + 16384
    omega

/-- THE ARRAY after the region: `relOf` of the two operand arrays as the region finds them. -/
theorem rel_array (c : Dev nD) :
    (Gen.dat0 (F := Ideal) V c).arrAt 2 cfg0.N = relOf (V c main_v8) (V c main_v10) :=
  (dat0 V c).arrAt_eq_of_cover 2 (relOf (V c main_v8) (V c main_v10)) (fun t _ => flushed_eq V c t) (covered)

end Region

end Cert.KernelIdeal.RelValue

end
-- ==== Proof.RelRef.lean ====
/- The reference's encoding, read at an index. The reference computes, from the points x0 : [4,65536,3] and the
   gathered neighbours g : [4,65536,16,3] (an arbitrary array here), the point broadcast over the 16 neighbour slots,
   the difference, the sum of its squares over the coordinate axis (a host sum started from the constant 0), the square
   root, and joins the four along the last axis into [4,65536,16,10]. At (b, n, k, channel) this is channel `channel` of
   the encoding (`relChan`) of point (b, n) — coordinates x0(b, n, ·) — against its neighbour k — coordinates
   g(b, n, k, ·). The host sum 0 + Σ is the plain sum: only the zero word is evaluated. -/
import proofs.«135792_j22170621181973_1_alg».proof.Proof.Gen.ReferenceIdeal
import proofs.«135792_j22170621181973_1_alg».proof.Proof.RelSpec
import Idealize.ShloMosaic.Lib.Pipeline.Value
import Idealize.ShloMosaic.PureOps.Ideal.Laws

noncomputable section

namespace Cert.KernelIdeal.RelValue

open Idealize.ShloMosaic Idealize.ShloMosaic.ValueIdx
open scoped BigOperators

/-! ## The reference's term and its pieces -/

/-- The points broadcast over the neighbour slots: [4,65536,3] → [4,65536,1,3] → [4,65536,16,3]. -/
def refTile (x0 : FVec Ideal Cert.ReferenceIdeal.S4x65536x3 .f32) : FVec Ideal Cert.ReferenceIdeal.S4x65536x16x3 .f32 :=
  (broadcastInDim Cert.ReferenceIdeal.S4x65536x16x3 ![0, 1, 2, 3] Cert.ReferenceIdeal.Gen.bcast_S4x65536x1x3_S4x65536x16x3_0_1_2_3 (broadcastInDim Cert.ReferenceIdeal.S4x65536x1x3 ![0, 1, 3] Cert.ReferenceIdeal.Gen.bcast_S4x65536x3_S4x65536x1x3_0_1_3 x0))

/-- The relative positions: the broadcast points less the neighbours. -/
def refDiff (x0 : FVec Ideal Cert.ReferenceIdeal.S4x65536x3 .f32) (g : FVec Ideal Cert.ReferenceIdeal.S4x65536x16x3 .f32) :
    FVec Ideal Cert.ReferenceIdeal.S4x65536x16x3 .f32 :=
  (subf (F := Ideal) (broadcastInDim Cert.ReferenceIdeal.S4x65536x16x3 ![0, 1, 2, 3] Cert.ReferenceIdeal.Gen.bcast_S4x65536x1x3_S4x65536x16x3_0_1_2_3 (broadcastInDim Cert.ReferenceIdeal.S4x65536x1x3 ![0, 1, 3] Cert.ReferenceIdeal.Gen.bcast_S4x65536x3_S4x65536x1x3_0_1_3 x0)) g)

/-- The distances: the host sum over the coordinate axis of the squared differences, kept as a unit axis, then the
    square root. -/
def refDist (x0 : FVec Ideal Cert.ReferenceIdeal.S4x65536x3 .f32) (g : FVec Ideal Cert.ReferenceIdeal.S4x65536x16x3 .f32) :
    FVec Ideal Cert.ReferenceIdeal.S4x65536x16x1 .f32 :=
  (Host.sqrt (F := Ideal) (broadcastInDim Cert.ReferenceIdeal.S4x65536x16x1 ![0, 1, 2] Cert.ReferenceIdeal.Gen.bcast_S4x65536x16_S4x65536x16x1_0_1_2 (Host.reduceAdd (F := Ideal) (mulf (F := Ideal) (subf (F := Ideal) (broadcastInDim Cert.ReferenceIdeal.S4x65536x16x3 ![0, 1, 2, 3] Cert.ReferenceIdeal.Gen.bcast_S4x65536x1x3_S4x65536x16x3_0_1_2_3 (broadcastInDim Cert.ReferenceIdeal.S4x65536x1x3 ![0, 1, 3] Cert.ReferenceIdeal.Gen.bcast_S4x65536x3_S4x65536x1x3_0_1_3 x0)) g) (subf (F := Ideal) (broadcastInDim Cert.ReferenceIdeal.S4x65536x16x3 ![0, 1, 2, 3] Cert.ReferenceIdeal.Gen.bcast_S4x65536x1x3_S4x65536x16x3_0_1_2_3 (broadcastInDim Cert.ReferenceIdeal.S4x65536x1x3 ![0, 1, 3] Cert.ReferenceIdeal.Gen.bcast_S4x65536x3_S4x65536x1x3_0_1_3 x0)) g)) (constant (F := Ideal) Cert.ReferenceIdeal.S_ .f32 0x00000000#32) Cert.ReferenceIdeal.Gen.reducesTo_S4x65536x16x3_S4x65536x16_d3 Cert.ReferenceIdeal.Gen.h_S_)))

/-- The reference's result as one term of the points and the gathered neighbours. -/
def refRel (x0 : FVec Ideal Cert.ReferenceIdeal.S4x65536x3 .f32) (g : FVec Ideal Cert.ReferenceIdeal.S4x65536x16x3 .f32) :
    FVec Ideal Cert.ReferenceIdeal.S4x65536x16x10 .f32 :=
  concatenate Cert.ReferenceIdeal.S4x65536x16x10 3 [⟨Cert.ReferenceIdeal.S4x65536x16x1, (Host.sqrt (F := Ideal) (broadcastInDim Cert.ReferenceIdeal.S4x65536x16x1 ![0, 1, 2] Cert.ReferenceIdeal.Gen.bcast_S4x65536x16_S4x65536x16x1_0_1_2 (Host.reduceAdd (F := Ideal) (mulf (F := Ideal) (subf (F := Ideal) (broadcastInDim Cert.ReferenceIdeal.S4x65536x16x3 ![0, 1, 2, 3] Cert.ReferenceIdeal.Gen.bcast_S4x65536x1x3_S4x65536x16x3_0_1_2_3 (broadcastInDim Cert.ReferenceIdeal.S4x65536x1x3 ![0, 1, 3] Cert.ReferenceIdeal.Gen.bcast_S4x65536x3_S4x65536x1x3_0_1_3 x0)) g) (subf (F := Ideal) (broadcastInDim Cert.ReferenceIdeal.S4x65536x16x3 ![0, 1, 2, 3] Cert.ReferenceIdeal.Gen.bcast_S4x65536x1x3_S4x65536x16x3_0_1_2_3 (broadcastInDim Cert.ReferenceIdeal.S4x65536x1x3 ![0, 1, 3] Cert.ReferenceIdeal.Gen.bcast_S4x65536x3_S4x65536x1x3_0_1_3 x0)) g)) (constant (F := Ideal) Cert.ReferenceIdeal.S_ .f32 0x00000000#32) Cert.ReferenceIdeal.Gen.reducesTo_S4x65536x16x3_S4x65536x16_d3 Cert.ReferenceIdeal.Gen.h_S_)))⟩, ⟨Cert.ReferenceIdeal.S4x65536x16x3, (subf (F := Ideal) (broadcastInDim Cert.ReferenceIdeal.S4x65536x16x3 ![0, 1, 2, 3] Cert.ReferenceIdeal.Gen.bcast_S4x65536x1x3_S4x65536x16x3_0_1_2_3 (broadcastInDim Cert.ReferenceIdeal.S4x65536x1x3 ![0, 1, 3] Cert.ReferenceIdeal.Gen.bcast_S4x65536x3_S4x65536x1x3_0_1_3 x0)) g)⟩, ⟨Cert.ReferenceIdeal.S4x65536x16x3, (broadcastInDim Cert.ReferenceIdeal.S4x65536x16x3 ![0, 1, 2, 3] Cert.ReferenceIdeal.Gen.bcast_S4x65536x1x3_S4x65536x16x3_0_1_2_3 (broadcastInDim Cert.ReferenceIdeal.S4x65536x1x3 ![0, 1, 3] Cert.ReferenceIdeal.Gen.bcast_S4x65536x3_S4x65536x1x3_0_1_3 x0))⟩, ⟨Cert.ReferenceIdeal.S4x65536x16x3, g⟩] Cert.ReferenceIdeal.Gen.concatenates_S4x65536x16x1_S4x65536x16x3_S4x65536x16x3_S4x65536x16x3_S4x65536x16x10_d3

/-- The term is the join of the four pieces along the channel axis. -/
theorem refRel_eq (x0 : FVec Ideal Cert.ReferenceIdeal.S4x65536x3 .f32) (g : FVec Ideal Cert.ReferenceIdeal.S4x65536x16x3 .f32) :
    refRel x0 g = concatenate Cert.ReferenceIdeal.S4x65536x16x10 3 [⟨Cert.ReferenceIdeal.S4x65536x16x1, refDist x0 g⟩,
      ⟨Cert.ReferenceIdeal.S4x65536x16x3, refDiff x0 g⟩, ⟨Cert.ReferenceIdeal.S4x65536x16x3, refTile x0⟩,
      ⟨Cert.ReferenceIdeal.S4x65536x16x3, g⟩]
      Cert.ReferenceIdeal.Gen.concatenates_S4x65536x16x1_S4x65536x16x3_S4x65536x16x3_S4x65536x16x3_S4x65536x16x10_d3 := rfl

/-! ## Each piece at an index -/

/-- The broadcast points at (b, n, k, c) are the points at (b, n, c): the neighbour slot is not read. -/
theorem refTile_apply (x0 : FVec Ideal Cert.ReferenceIdeal.S4x65536x3 .f32) (b : Fin 4) (n : Fin 65536) (k : Fin 16) (c : Fin 3) :
    refTile x0 (ix4 b n k c) = x0 (ix3 b n c) := by
  unfold refTile
  refine (broadcastInDim_apply _ Cert.ReferenceIdeal.Gen.bcast_S4x65536x1x3_S4x65536x16x3_0_1_2_3 _ (ix4 b n k c)
    (ix4 b n (0 : Fin 1) c) (fun a => ?_)).trans ?_
  · match a with
    | ⟨0, _⟩ => rfl
    | ⟨1, _⟩ => rfl
    | ⟨2, _⟩ => rfl
    | ⟨3, _⟩ => rfl
  · refine broadcastInDim_apply _ Cert.ReferenceIdeal.Gen.bcast_S4x65536x3_S4x65536x1x3_0_1_3 x0 (ix4 b n (0 : Fin 1) c)
      (ix3 b n c) (fun a => ?_)
    match a with
    | ⟨0, _⟩ => rfl
    | ⟨1, _⟩ => rfl
    | ⟨2, _⟩ => rfl

/-- The relative position at (b, n, k, c). -/
theorem refDiff_apply (x0 : FVec Ideal Cert.ReferenceIdeal.S4x65536x3 .f32) (g : FVec Ideal Cert.ReferenceIdeal.S4x65536x16x3 .f32)
    (b : Fin 4) (n : Fin 65536) (k : Fin 16) (c : Fin 3) :
    refDiff x0 g (ix4 b n k c) = x0 (ix3 b n c) - g (ix4 b n k c) := by
  show refTile x0 (ix4 b n k c) - g (ix4 b n k c) = _
  rw [refTile_apply]

/-- The host square root of an array, at an index, is the ideal square root of the entry. -/
theorem hostSqrt_apply {s : Shape} {φ : FTy} (v : FVec Ideal s φ) (i : s.Idx) : Host.sqrt (F := Ideal) v i = Ideal.sqrt (v i) := rfl

/-- The distance at (b, n, k, 0): the host sum over the last axis, started from the zero word, is the sum over
    `Fin 3` of the squared differences. -/
theorem refDist_apply (x0 : FVec Ideal Cert.ReferenceIdeal.S4x65536x3 .f32) (g : FVec Ideal Cert.ReferenceIdeal.S4x65536x16x3 .f32)
    (b : Fin 4) (n : Fin 65536) (k : Fin 16) (u : Fin 1) :
    refDist x0 g (ix4 b n k u)
      = Ideal.sqrt (∑ c : Fin 3, (x0 (ix3 b n c) - g (ix4 b n k c)) * (x0 (ix3 b n c) - g (ix4 b n k c))) := by
  unfold refDist
  rw [hostSqrt_apply]
  refine congrArg Ideal.sqrt ?_
  refine (broadcastInDim_apply _ Cert.ReferenceIdeal.Gen.bcast_S4x65536x16_S4x65536x16x1_0_1_2 _ (ix4 b n k u) (ix3 b n k)
    (fun a => ?_)).trans ?_
  · match a with
    | ⟨0, _⟩ => rfl
    | ⟨1, _⟩ => rfl
    | ⟨2, _⟩ => rfl
  · have hR : Cert.ReferenceIdeal.S4x65536x16x3.Reduces [3] Cert.ReferenceIdeal.S4x65536x16 := by decide
    simp only [Host.reduceAdd, Ideal.hostReduceAdd_def]
    refine (Ideal.hostReduceAdd_single Cert.ReferenceIdeal.Gen.reducesTo_S4x65536x16x3_S4x65536x16_d3 hR _ _ (ix3 b n k)).trans ?_
    rw [constant_apply, Ideal.ofBits_zero_f32, zero_add]
    show ∑ c : Fin 3, mulf (refDiff x0 g) (refDiff x0 g) (hR.lift (ix3 b n k) c) = _
    refine Finset.sum_congr rfl fun c _ => ?_
    have e : hR.lift (ix3 b n k) c = ix4 b n k c :=
      funext fun a => Fin.ext (by match a with | ⟨0, _⟩ => rfl | ⟨1, _⟩ => rfl | ⟨2, _⟩ => rfl | ⟨3, _⟩ => rfl)
    rw [e, mulf_apply, refDiff_apply]

/-! ## The reference's term at an index -/

/-- The reference's result at (b, n, k, channel) is the encoding of point (b, n) against its neighbour k. -/
theorem refRel_apply (x0 : FVec Ideal Cert.ReferenceIdeal.S4x65536x3 .f32) (g : FVec Ideal Cert.ReferenceIdeal.S4x65536x16x3 .f32)
    (b : Fin 4) (n : Fin 65536) (k : Fin 16) (ch : Fin 10) :
    refRel x0 g (ix4 b n k ch) = relChan (fun c => x0 (ix3 b n c)) (fun c => g (ix4 b n k c)) ch := by
  rw [refRel_eq]
  rcases chan_cases ch with h | ⟨c, h⟩ | ⟨c, h⟩ | ⟨c, h⟩
  · rw [relChan_dist _ _ ch h]
    refine (concatenate_apply_piece (3 : Fin 4) _ _ (ix4 b n k ch) 0 ?_ Cert.ReferenceIdeal.S4x65536x16x1 (refDist x0 g) ?_ rfl 0 ?_
      (ix4 b n k (0 : Fin 1)) (fun a ha => ?_) ?_).trans (refDist_apply x0 g b n k 0)
    · exact (by decide : (0 : Nat) < 4)
    · rfl
    · rfl
    · match a, ha with
      | ⟨0, _⟩, _ => rfl
      | ⟨1, _⟩, _ => rfl
      | ⟨2, _⟩, _ => rfl
      | ⟨3, _⟩, ha => exact absurd rfl ha
    · show 0 + 0 = ch.val
      omega
  · rw [relChan_rel _ _ ch c h]
    refine (concatenate_apply_piece (3 : Fin 4) _ _ (ix4 b n k ch) 1 ?_ Cert.ReferenceIdeal.S4x65536x16x3 (refDiff x0 g) ?_ rfl 1 ?_
      (ix4 b n k c) (fun a ha => ?_) ?_).trans (refDiff_apply x0 g b n k c)
    · exact (by decide : (1 : Nat) < 4)
    · rfl
    · rfl
    · match a, ha with
      | ⟨0, _⟩, _ => rfl
      | ⟨1, _⟩, _ => rfl
      | ⟨2, _⟩, _ => rfl
      | ⟨3, _⟩, ha => exact absurd rfl ha
    · show 1 + c.val = ch.val
      omega
  · rw [relChan_tile _ _ ch c h]
    refine (concatenate_apply_piece (3 : Fin 4) _ _ (ix4 b n k ch) 2 ?_ Cert.ReferenceIdeal.S4x65536x16x3 (refTile x0) ?_ rfl 4 ?_
      (ix4 b n k c) (fun a ha => ?_) ?_).trans (refTile_apply x0 b n k c)
    · exact (by decide : (2 : Nat) < 4)
    · rfl
    · rfl
    · match a, ha with
      | ⟨0, _⟩, _ => rfl
      | ⟨1, _⟩, _ => rfl
      | ⟨2, _⟩, _ => rfl
      | ⟨3, _⟩, ha => exact absurd rfl ha
    · show 4 + c.val = ch.val
      omega
  · rw [relChan_nbr _ _ ch c h]
    refine (concatenate_apply_piece (3 : Fin 4) _ _ (ix4 b n k ch) 3 ?_ Cert.ReferenceIdeal.S4x65536x16x3 g ?_ rfl 7 ?_
      (ix4 b n k c) (fun a ha => ?_) ?_).trans rfl
    · exact (by decide : (3 : Nat) < 4)
    · rfl
    · rfl
    · match a, ha with
      | ⟨0, _⟩, _ => rfl
      | ⟨1, _⟩, _ => rfl
      | ⟨2, _⟩, _ => rfl
      | ⟨3, _⟩, ha => exact absurd rfl ha
    · show 7 + c.val = ch.val
      omega

end Cert.KernelIdeal.RelValue

end
-- ==== Proof.RelBridge.lean ====
/- The bridge: the kernel-side program wraps the region in layout operations — the points x0 : [4,65536,3] are
   transposed and flattened to X : [3,262144] (lane L = 65536·b + n), the gathered neighbours g : [4,65536,16,3] to
   Y : [3,16,262144], and the region's [10,16,262144] output is unflattened and transposed back to [4,65536,16,10] —
   and what comes out is, index by index, the reference's term of the same x0 and g. At (b, n, k, channel) both are
   channel `channel` of the encoding of point (b, n), coordinates x0(b, n, ·), against neighbour k, coordinates
   g(b, n, k, ·): on the kernel side X(c, L) = x0(b, n, c) and Y(c, k, L) = g(b, n, k, c) by the row-major positions. -/
import proofs.«135792_j22170621181973_1_alg».proof.Proof.RelSpec
import proofs.«135792_j22170621181973_1_alg».proof.Proof.RelRef
import Idealize.ShloMosaic.Lib.Pipeline.Value

noncomputable section

namespace Cert.KernelIdeal.RelValue

open Idealize.ShloMosaic Idealize.ShloMosaic.ValueIdx

/-- The flattened, transposed points at (c, 65536·b + n) are the points at (b, n, c). -/
theorem pointsT_apply (x0 : FVec Ideal S4x65536x3 .f32) (h7 : S4x65536x3.Transposes [2, 0, 1] S3x4x65536)
    (h8 : S3x4x65536.ShapeCasts S3x262144) (b : Fin 4) (n : Fin 65536) (c : Fin 3) (L : Fin 262144)
    (hL : L.val = b.val * 65536 + n.val) :
    shapeCast S3x262144 (transpose S3x4x65536 [2, 0, 1] x0 h7) h8 (ix2 c L) = x0 (ix3 b n c) := by
  refine (shapeCast_apply _ h8 (ix2 c L) (ix3 c b n) (by
    rw [Shape.rowMajor_val_three, Shape.rowMajor_val_two]
    show (c.val * 4 + b.val) * 65536 + n.val = c.val * 262144 + L.val
    omega)).trans ?_
  refine transpose_apply _ x0 h7 (ix3 c b n) (ix3 b n c) (fun a => ?_)
  match a with
  | ⟨0, _⟩ => rfl
  | ⟨1, _⟩ => rfl
  | ⟨2, _⟩ => rfl

/-- The flattened, transposed neighbours at (c, k, 65536·b + n) are the neighbours at (b, n, k, c). -/
theorem nbrsT_apply (g : FVec Ideal S4x65536x16x3 .f32) (h9 : S4x65536x16x3.Transposes [3, 2, 0, 1] S3x16x4x65536)
    (h10 : S3x16x4x65536.ShapeCasts S3x16x262144) (b : Fin 4) (n : Fin 65536) (k : Fin 16) (c : Fin 3) (L : Fin 262144)
    (hL : L.val = b.val * 65536 + n.val) :
    shapeCast S3x16x262144 (transpose S3x16x4x65536 [3, 2, 0, 1] g h9) h10 (ix3 c k L) = g (ix4 b n k c) := by
  refine (shapeCast_apply _ h10 (ix3 c k L) (ix4 c k b n) (by
    rw [Shape.rowMajor_val_four, Shape.rowMajor_val_three]
    show ((c.val * 16 + k.val) * 4 + b.val) * 65536 + n.val = (c.val * 16 + k.val) * 262144 + L.val
    omega)).trans ?_
  refine transpose_apply _ g h9 (ix4 c k b n) (ix4 b n k c) (fun a => ?_)
  match a with
  | ⟨0, _⟩ => rfl
  | ⟨1, _⟩ => rfl
  | ⟨2, _⟩ => rfl
  | ⟨3, _⟩ => rfl

/-- The kernel-side wrapping of `relOf` is the reference's term. -/
theorem rel_bridge (x0 : FVec Ideal S4x65536x3 .f32) (g : FVec Ideal S4x65536x16x3 .f32)
    (h7 : S4x65536x3.Transposes [2, 0, 1] S3x4x65536) (h8 : S3x4x65536.ShapeCasts S3x262144)
    (h9 : S4x65536x16x3.Transposes [3, 2, 0, 1] S3x16x4x65536) (h10 : S3x16x4x65536.ShapeCasts S3x16x262144)
    (h12 : S10x16x262144.ShapeCasts S10x16x4x65536) (h13 : S10x16x4x65536.Transposes [2, 3, 1, 0] S4x65536x16x10) :
    transpose S4x65536x16x10 [2, 3, 1, 0] (shapeCast S10x16x4x65536
      (relOf (shapeCast S3x262144 (transpose S3x4x65536 [2, 0, 1] x0 h7) h8)
        (shapeCast S3x16x262144 (transpose S3x16x4x65536 [3, 2, 0, 1] g h9) h10)) h12) h13 = refRel x0 g := by
  funext i
  obtain ⟨b, n, k, ch, rfl⟩ : ∃ (b : Fin 4) (n : Fin 65536) (k : Fin 16) (ch : Fin 10), i = ix4 b n k ch :=
    ⟨i 0, i 1, i 2, i 3, eq_ix4 i⟩
  have hb : b.val < 4 := b.isLt
  have hn : n.val < 65536 := n.isLt
  have hlt : b.val * 65536 + n.val < 262144 := by omega
  refine Eq.trans ?_ (refRel_apply x0 g b n k ch).symm
  refine (transpose_apply _ _ h13 (ix4 b n k ch) (ix4 ch k b n) (fun a => ?_)).trans ?_
  · match a with
    | ⟨0, _⟩ => rfl
    | ⟨1, _⟩ => rfl
    | ⟨2, _⟩ => rfl
    | ⟨3, _⟩ => rfl
  refine (shapeCast_apply _ h12 (ix4 ch k b n) (ix3 ch k (⟨b.val * 65536 + n.val, hlt⟩ : Fin 262144)) (by
    rw [Shape.rowMajor_val_three, Shape.rowMajor_val_four]
    show (ch.val * 16 + k.val) * 262144 + (b.val * 65536 + n.val) = ((ch.val * 16 + k.val) * 4 + b.val) * 65536 + n.val
    omega)).trans ?_
  rw [relOf_ix3]
  have e0 : (fun c : Fin 3 => shapeCast S3x262144 (transpose S3x4x65536 [2, 0, 1] x0 h7) h8
      (ix2 c (⟨b.val * 65536 + n.val, hlt⟩ : Fin 262144))) = fun c : Fin 3 => x0 (ix3 b n c) :=
    funext fun c => pointsT_apply x0 h7 h8 b n c _ rfl
  have e1 : (fun c : Fin 3 => shapeCast S3x16x262144 (transpose S3x16x4x65536 [3, 2, 0, 1] g h9) h10
      (ix3 c k (⟨b.val * 65536 + n.val, hlt⟩ : Fin 262144))) = fun c : Fin 3 => g (ix4 b n k c) :=
    funext fun c => nbrsT_apply g h9 h10 b n k c _ rfl
  rw [e0, e1]

end Cert.KernelIdeal.RelValue

end
-- ==== Proof.PoolSpec.lean ====
/-
  The max-pool result as one function of the pooled array, index by index: entry (r, n) of the result is the
  maximum, over the 16 neighbours k, of entry (k, r, n) of the operand, taken as the fold of `max` from −∞
  (the word 0xFF800000) over k.
-/
import proofs.«135792_j22170621181973_1_alg».proof.KernelIdeal
import Idealize.ShloMosaic.Lib.ValueIdx
import Idealize.ShloMosaic.PureOps.Ideal.Laws
import Idealize.ShloMosaic.PureOps.Reduce

noncomputable section

namespace Cert.KernelIdeal.PoolValue

open Idealize.ShloMosaic Idealize.ShloMosaic.ValueIdx

/-- The pooled array: at (r, n) the maximum over the neighbour axis k of `X (k, r, n)`, from −∞. -/
noncomputable def poolOf (X : FVec Ideal S16x128x16384 .f32) : FVec Ideal S128x16384 .f32 :=
  fun j => (Finset.univ : Finset (Fin 16)).fold max (FloatOps.ofBits (F := Ideal) .f32 0xFF800000#32)
    (fun k => X (ix3 k (j 0 : Fin 128) (j 1 : Fin 16384)))

/-- `poolOf` at an index given by its coordinates. -/
theorem poolOf_apply (X : FVec Ideal S16x128x16384 .f32) (r : Fin 128) (n : Fin 16384) :
    poolOf X (ix2 r n) = (Finset.univ : Finset (Fin 16)).fold max (FloatOps.ofBits (F := Ideal) .f32 0xFF800000#32)
      (fun k => X (ix3 k r n)) := rfl

/-- A maximum over the leading axis of a [16, P, Q] vector, read at (p, q): the fold of `max` from the accumulator's
    value over the leading coordinate. -/
theorem maxLead_apply {P Q : Nat} (x : FVec Ideal ⟨3, ![16, P, Q]⟩ .f32)
    (h : Shape.Reduces ⟨3, ![16, P, Q]⟩ [0] ⟨2, ![P, Q]⟩) (hφ : FKind.Formats .f32)
    (hacc : (0xFF800000#32 : BitVec 32) = FKind.maximumf.neutral .f32 hφ) (p : Fin P) (q : Fin Q) :
    multiReduction .maximumf [0] ⟨2, ![P, Q]⟩ x 0xFF800000#32 h hφ hacc (ix2 p q)
      = (Finset.univ : Finset (Fin 16)).fold max (FloatOps.ofBits (F := Ideal) .f32 0xFF800000#32)
          (fun k => x (ix3 k p q)) := by
  refine (Ideal.multiReduction_maximumf_single x _ h hφ hacc (ix2 p q)).trans ?_
  refine congrArg (Finset.fold max _ · Finset.univ) (funext fun k => ?_)
  show x (h.lift (ix2 p q) k) = x (ix3 k p q)
  refine congrArg x (funext fun a => Fin.ext ?_)
  match a with
  | ⟨0, _⟩ => rfl
  | ⟨1, _⟩ => rfl
  | ⟨2, _⟩ => rfl

end Cert.KernelIdeal.PoolValue

end
-- ==== Proof.PoolArray.lean ====
/-
  From blocks to the array for the max-pool region. The grid has 16 points; point t reads the block
  [16, 128, 1024] of the operand at lane offset 1024·t and writes the block [128, 1024] of the result at the same
  lane offset. Each written block is the restriction of one function of the whole operand, `poolOf`: the
  entry (p, q) of block t is the maximum over k of the operand at (k, p, 1024·t + q). The 16 blocks tile the
  result, so after the region the result array is `poolOf` of the operand array.
-/
import proofs.«135792_j22170621181973_1_alg».proof.Proof.Gen.KernelIdeal.Frame
import proofs.«135792_j22170621181973_1_alg».proof.Proof.PoolSpec
import Idealize.ShloMosaic.Lib.Pipeline.Value

set_option maxRecDepth 16384

noncomputable section

namespace Cert.KernelIdeal.PoolValue

open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero3 : (![0, 0, 0] : Fin 3 → Nat) = fun _ => 0 := funext fun a => by fin_cases a <;> rfl
theorem zero2 : (![0, 0] : Fin 2 → Nat) = fun _ => 0 := funext fun a => by fin_cases a <;> rfl

/-- The body's value at (p, q) of its block: the maximum over the 16 neighbours of the loaded block at (k, p, q). -/
theorem pay_apply (x0 : Vec Ideal S16x128x1024 .f32) (p : Fin 128) (q : Fin 1024) :
    Gen.k1_pay1 (F := Ideal) x0 (ix2 p q)
      = (Finset.univ : Finset (Fin 16)).fold max (FloatOps.ofBits (F := Ideal) .f32 0xFF800000#32)
          (fun k => x0 (ix3 k p q)) := by
  unfold Gen.k1_pay1
  rw [shapeCast_self]
  exact maxLead_apply _ _ _ _ p q

/-- The two index maps, decided over the grid: the operand's block index is (0, 0, t), the result's is (0, t). -/
theorem idx_facts : ∀ t : Fin cfg1.N,
    win1_0.index t (0 : Fin 3) = 0 ∧ win1_0.index t (1 : Fin 3) = 0 ∧ win1_0.index t (2 : Fin 3) = t.val
      ∧ win1_1.index t (0 : Fin 2) = 0 ∧ win1_1.index t (1 : Fin 2) = t.val :=
  (by decide +kernel : ∀ t : Fin grid1.N, _)

/-- What point `t` writes back is block `t` of `poolOf` of the operand array as the region finds it. -/
theorem flushed_eq (c : Dev nD) (t : Fin cfg1.N) :
    (Gen.dat1 (F := Ideal) V c).flushed 1 t
      = ((cfg1.win 1).blk t).view.read (Elt Ideal) (poolOf (V c main_v19)) := by
  show (cfg1.win 1).cut (grid1.coords t) ((Gen.dat1 (F := Ideal) V c).after 1 t) = _
  rw [Gen.after1_1]
  unfold Gen.out1_1
  rw [View.canon_unit_zero zero2]
  simp only [View.ld_unit_zero (S := S16x128x1024) zero3]
  obtain ⟨e0, e1, e2, e3, e4⟩ := idx_facts t
  funext j
  obtain ⟨p, q, rfl⟩ : ∃ (p : Fin 128) (q : Fin 1024), j = ix2 p q := ⟨j 0, j 1, eq_ix2 j⟩
  show Gen.k1_pay1 (F := Ideal) (Gen.iblk1 V c 0 t) (ix2 p q)
    = poolOf (V c main_v19) (((cfg1.win 1).blk t).view.emb (ix2 p q))
  refine (pay_apply _ p q).trans ?_
  show _ = (Finset.univ : Finset (Fin 16)).fold max (FloatOps.ofBits (F := Ideal) .f32 0xFF800000#32)
    (fun k => V c main_v19 (ix3 k ((((cfg1.win 1).blk t).view.emb (ix2 p q)) 0) ((((cfg1.win 1).blk t).view.emb (ix2 p q)) 1)))
  refine congrArg (Finset.fold max _ · Finset.univ) (funext fun k => ?_)
  show V c main_v19 (((cfg1.win 0).blk t).view.emb (ix3 k p q)) = _
  have h0 : ((cfg1.win 0).blk t).view.emb (ix3 k p q)
      = ix3 k ((((cfg1.win 1).blk t).view.emb (ix2 p q)) 0) ((((cfg1.win 1).blk t).view.emb (ix2 p q)) 1) := by
    funext a; apply Fin.ext
    match a with
    | ⟨0, _⟩ => show win1_0.index t (0 : Fin 3) * 16 + 1 * k.val = k.val; omega
    | ⟨1, _⟩ => show win1_0.index t (1 : Fin 3) * 128 + 1 * p.val = win1_1.index t (0 : Fin 2) * 128 + 1 * p.val; omega
    | ⟨2, _⟩ => show win1_0.index t (2 : Fin 3) * 1024 + 1 * q.val = win1_1.index t (1 : Fin 2) * 1024 + 1 * q.val; omega
  rw [h0]
  rfl

/-- An index of the result array is in point `t`'s block iff each coordinate is in the block's range on its axis. -/
theorem mem_blk (t : Fin cfg1.N) (i : S128x16384.Idx) :
    i ∈ ((cfg1.win 1).blk t).view.set ↔ ∀ a : Fin 2, win1_1.index t a * S128x1024.size a ≤ (i a).val
      ∧ (i a).val < win1_1.index t a * S128x1024.size a + S128x1024.size a := by
  show i ∈ ((View.whole main_v20).slice (win1_1.rect t)).set ↔ _
  rw [View.set_slice_whole, Rect.mem_set_unit]
  exact Iff.rfl

/-- Every index (r, n) of the result is in the block of point n / 1024. -/
theorem cover (i : S128x16384.Idx) :
    ∃ t : Fin cfg1.N, (cfg1.win 1).flush t = true ∧ i ∈ ((cfg1.win 1).blk t).view.set := by
  have hi0 : (i 0).val < 128 := (i 0).isLt
  have hi1 : (i 1).val < 16384 := (i 1).isLt
  have hN : grid1.N = 16 := Gen.N_1
  have ht : (i 1).val / 1024 < grid1.N := by rw [hN]; omega
  obtain ⟨e0, e1, e2, e3, e4⟩ := idx_facts ⟨(i 1).val / 1024, ht⟩
  refine ⟨⟨(i 1).val / 1024, ht⟩, Gen.flush1_1 _, ?_⟩
  rw [mem_blk]
  intro a
  match a with
  | ⟨0, _⟩ =>
    show win1_1.index ⟨(i 1).val / 1024, ht⟩ (0 : Fin 2) * 128 ≤ (i 0).val
      ∧ (i 0).val < win1_1.index ⟨(i 1).val / 1024, ht⟩ (0 : Fin 2) * 128 + 128
    omega
  | ⟨1, _⟩ =>
    show win1_1.index ⟨(i 1).val / 1024, ht⟩ (1 : Fin 2) * 1024 ≤ (i 1).val
      ∧ (i 1).val < win1_1.index ⟨(i 1).val / 1024, ht⟩ (1 : Fin 2) * 1024 + 1024
    have e4' : win1_1.index ⟨(i 1).val / 1024, ht⟩ (1 : Fin 2) = (i 1).val / 1024 := e4
    omega

/-- The result array after the region: `poolOf` of the operand array as the region finds it. -/
theorem pool_array (c : Dev nD) :
    (Gen.dat1 (F := Ideal) V c).arrAt 1 cfg1.N = poolOf (V c main_v19) :=
  (Gen.dat1 (F := Ideal) V c).arrAt_eq_of_cover 1 (poolOf (V c main_v19)) (fun t _ => flushed_eq V c t) cover

end Cert.KernelIdeal.PoolValue

end
-- ==== Proof.PoolBridge.lean ====
/-
  The two programs' max-pool results are the same function of the gathered features T : [4, 32, 262144].
  The kernel's side regroups T as X(k, 32·b + d, n) = T(b, d, 16·n + k), pools over k, and regroups the result
  as [4, 32, 16384, 1]; the reference's side regroups T as [4, 32, 16384, 16], takes the maximum over the last axis
  from −∞, and adds a unit axis. At (b, d, n, 0) both are the fold of `max` from −∞ over k < 16 of T(b, d, 16·n + k).
-/
import proofs.«135792_j22170621181973_1_alg».proof.Proof.PoolSpec
import proofs.«135792_j22170621181973_1_alg».proof.ReferenceIdeal
import Idealize.ShloMosaic.Lib.Pipeline.Value

noncomputable section

namespace Cert.KernelIdeal.PoolValue

open Idealize.ShloMosaic Idealize.ShloMosaic.ValueIdx

/-- The common value at (b, d, n): the maximum over the 16 consecutive lanes 16·n + k of row (b, d) of T, from −∞. -/
noncomputable def laneMax (T : FVec Ideal S4x32x262144 .f32) (b : Fin 4) (d : Fin 32) (n : Fin 16384) : EReal :=
  (Finset.univ : Finset (Fin 16)).fold max (FloatOps.ofBits (F := Ideal) .f32 0xFF800000#32)
    (fun k => T (ix3 b d (⟨16 * n.val + k.val, by have := n.isLt; have := k.isLt; omega⟩ : Fin 262144)))

/-- The kernel's side at (b, d, n, u). -/
theorem kernel_side (T : FVec Ideal S4x32x262144 .f32) (h1 : S4x32x262144.ShapeCasts S4x32x16384x16)
    (h2 : S4x32x16384x16.Transposes [3, 0, 1, 2] S16x4x32x16384) (h3 : S16x4x32x16384.ShapeCasts S16x128x16384)
    (h4 : S128x16384.ShapeCasts S4x32x16384x1) (b : Fin 4) (d : Fin 32) (n : Fin 16384) (u : Fin 1) :
    shapeCast S4x32x16384x1 (poolOf (shapeCast S16x128x16384 (transpose S16x4x32x16384 [3, 0, 1, 2]
        (shapeCast S4x32x16384x16 T h1) h2) h3)) h4 (ix4 b d n u) = laneMax T b d n := by
  have hb := b.isLt; have hd := d.isLt; have hn := n.isLt; have hu := u.isLt
  refine (shapeCast_apply _ h4 (ix4 b d n u) (ix2 (⟨32 * b.val + d.val, by omega⟩ : Fin 128) n) ?_).trans ?_
  · rw [Shape.rowMajor_val_two, Shape.rowMajor_val_four]
    show (32 * b.val + d.val) * 16384 + n.val = ((b.val * 32 + d.val) * 16384 + n.val) * 1 + u.val
    omega
  rw [poolOf_apply]
  unfold laneMax
  refine congrArg (Finset.fold max _ · Finset.univ) (funext fun k => ?_)
  have hk := k.isLt
  refine (shapeCast_apply _ h3 (ix3 k (⟨32 * b.val + d.val, by omega⟩ : Fin 128) n) (ix4 k b d n) ?_).trans ?_
  · rw [Shape.rowMajor_val_three, Shape.rowMajor_val_four]
    show ((k.val * 4 + b.val) * 32 + d.val) * 16384 + n.val = (k.val * 128 + (32 * b.val + d.val)) * 16384 + n.val
    omega
  refine (transpose_apply [3, 0, 1, 2] _ h2 (ix4 k b d n) (ix4 b d n k)
    (fun a => match a with | ⟨0, _⟩ => rfl | ⟨1, _⟩ => rfl | ⟨2, _⟩ => rfl | ⟨3, _⟩ => rfl)).trans ?_
  refine shapeCast_apply T h1 (ix4 b d n k) _ ?_
  rw [Shape.rowMajor_val_three, Shape.rowMajor_val_four]
  show (b.val * 32 + d.val) * 262144 + (16 * n.val + k.val) = ((b.val * 32 + d.val) * 16384 + n.val) * 16 + k.val
  omega

/-- The inserted index of the reference's reduction over the last axis is (b, d, n, k). -/
theorem lift_last (h : Shape.Reduces ⟨4, ![4, 32, 16384, 16]⟩ [3] ⟨3, ![4, 32, 16384]⟩) (b : Fin 4) (d : Fin 32)
    (n : Fin 16384) (k : Fin 16) : h.lift (ix3 b d n) k = ix4 b d n k := by
  funext a
  apply Fin.ext
  match a with
  | ⟨0, _⟩ => rfl
  | ⟨1, _⟩ => rfl
  | ⟨2, _⟩ => rfl
  | ⟨3, _⟩ => rfl

/-- The reference's side at (b, d, n, u). -/
theorem reference_side (T : FVec Ideal S4x32x262144 .f32)
    (h1' : Cert.ReferenceIdeal.S4x32x262144.ShapeCasts Cert.ReferenceIdeal.S4x32x16384x16)
    (hr : Cert.ReferenceIdeal.S4x32x16384x16.ReducesTo [3] Cert.ReferenceIdeal.S4x32x16384)
    (hS : 0 < Cert.ReferenceIdeal.S_.numel)
    (hb : Cert.ReferenceIdeal.S4x32x16384.BroadcastsInDim Cert.ReferenceIdeal.S4x32x16384x1 ![0, 1, 2])
    (b : Fin 4) (d : Fin 32) (n : Fin 16384) (u : Fin 1) :
    broadcastInDim Cert.ReferenceIdeal.S4x32x16384x1 ![0, 1, 2] hb
        (Host.reduce (FloatOps.maximumf (F := Ideal) (φ := .f32)) (shapeCast Cert.ReferenceIdeal.S4x32x16384x16 T h1')
          (constant (F := Ideal) Cert.ReferenceIdeal.S_ .f32 0xFF800000#32) hr hS) (ix4 b d n u) = laneMax T b d n := by
  have hbl := b.isLt; have hd := d.isLt; have hn := n.isLt
  have hred : Shape.Reduces ⟨4, ![4, 32, 16384, 16]⟩ [3] ⟨3, ![4, 32, 16384]⟩ := by decide
  refine (broadcastInDim_apply ![0, 1, 2] hb _ (ix4 b d n u) (ix3 b d n)
    (fun a => match a with | ⟨0, _⟩ => rfl | ⟨1, _⟩ => rfl | ⟨2, _⟩ => rfl)).trans ?_
  refine (Host.reduce_eq_fold_single _ _ _ hr hred hS (ix3 b d n)).trans ?_
  unfold laneMax
  show (Finset.univ : Finset (Fin 16)).fold max (FloatOps.ofBits (F := Ideal) .f32 0xFF800000#32)
      (fun k => shapeCast Cert.ReferenceIdeal.S4x32x16384x16 T h1' (hred.lift (ix3 b d n) k)) = _
  refine congrArg (Finset.fold max _ · Finset.univ) (funext fun (k : Fin 16) => ?_)
  have hk : k.val < 16 := k.isLt
  refine (congrArg (shapeCast Cert.ReferenceIdeal.S4x32x16384x16 T h1') (lift_last hred b d n k)).trans ?_
  refine shapeCast_apply T h1' (ix4 b d n k) _ ?_
  rw [Shape.rowMajor_val_three, Shape.rowMajor_val_four]
  show (b.val * 32 + d.val) * 262144 + (16 * n.val + k.val) = ((b.val * 32 + d.val) * 16384 + n.val) * 16 + k.val
  omega

/-- The kernel's pooled result, regrouped, is the reference's maximum over the neighbour axis, with its unit axis. -/
theorem pool_bridge (T : FVec Ideal S4x32x262144 .f32) (h1 : S4x32x262144.ShapeCasts S4x32x16384x16)
    (h2 : S4x32x16384x16.Transposes [3, 0, 1, 2] S16x4x32x16384) (h3 : S16x4x32x16384.ShapeCasts S16x128x16384)
    (h4 : S128x16384.ShapeCasts S4x32x16384x1)
    (h1' : Cert.ReferenceIdeal.S4x32x262144.ShapeCasts Cert.ReferenceIdeal.S4x32x16384x16)
    (hr : Cert.ReferenceIdeal.S4x32x16384x16.ReducesTo [3] Cert.ReferenceIdeal.S4x32x16384)
    (hS : 0 < Cert.ReferenceIdeal.S_.numel)
    (hb : Cert.ReferenceIdeal.S4x32x16384.BroadcastsInDim Cert.ReferenceIdeal.S4x32x16384x1 ![0, 1, 2]) :
    shapeCast S4x32x16384x1 (poolOf (shapeCast S16x128x16384 (transpose S16x4x32x16384 [3, 0, 1, 2]
        (shapeCast S4x32x16384x16 T h1) h2) h3)) h4
      = broadcastInDim Cert.ReferenceIdeal.S4x32x16384x1 ![0, 1, 2] hb
          (Host.reduce (FloatOps.maximumf (F := Ideal) (φ := .f32)) (shapeCast Cert.ReferenceIdeal.S4x32x16384x16 T h1')
            (constant (F := Ideal) Cert.ReferenceIdeal.S_ .f32 0xFF800000#32) hr hS) := by
  funext j
  obtain ⟨b, d, n, u, rfl⟩ : ∃ (b : Fin 4) (d : Fin 32) (n : Fin 16384) (u : Fin 1), j = ix4 b d n u :=
    ⟨j 0, j 1, j 2, j 3, eq_ix4 j⟩
  exact (kernel_side T h1 h2 h3 h4 b d n u).trans (reference_side T h1' hr hS hb b d n u).symm

end Cert.KernelIdeal.PoolValue

end
-- ==== Proof.Results.lean ====
/-
  The two idealized programs end with equal results.  Each result of the kernel program is walked back through the
  segments of its @main to the argument arrays (the fold module), the region in its way read as one function of the
  region's input arrays (the blocks-to-array modules), and that function, under the host's transposes and reshapes,
  is the reference's own term of the same operands (the bridge modules):
    * relative positions: per (batch, point, neighbour) the distance, the difference, the point and the neighbour,
      ten channels; the kernel computes them channel-major on 16 lane blocks, the reference along the last axis;
    * pooled features: the maximum over the sixteen taken neighbours; the kernel folds over the leading axis of a
      transposed array on 16 lane blocks, the reference reduces the last axis;
    * interpolated features: one chain of host operations, the same in both programs.
  The index chains (a gather, two `take_along_axis` calls) are the same functions in both programs and are never
  opened.  The only algebra is that a sum of three terms from zero and a maximum of sixteen terms from −∞ do not depend
  on how they are arranged; no law that fails at an infinity is involved, and the precondition is never opened.
-/
import proofs.«135792_j22170621181973_1_alg».proof.Defs
import proofs.«135792_j22170621181973_1_alg».proof.Proof.KernelRun
import proofs.«135792_j22170621181973_1_alg».proof.Proof.KernelFold
import proofs.«135792_j22170621181973_1_alg».proof.Proof.RefRun
import proofs.«135792_j22170621181973_1_alg».proof.Proof.RefOut
import proofs.«135792_j22170621181973_1_alg».proof.Proof.Gen.Pre_finite_inputs
import proofs.«135792_j22170621181973_1_alg».proof.Proof.RelArray
import proofs.«135792_j22170621181973_1_alg».proof.Proof.RelBridge
import proofs.«135792_j22170621181973_1_alg».proof.Proof.PoolArray
import proofs.«135792_j22170621181973_1_alg».proof.Proof.PoolBridge
import Idealize.ShloMosaic.PureOps.Ideal

noncomputable section

namespace Cert.Bridge

open Idealize.ShloMosaic Idealize.ShloMosaic.TcCoe Idealize.SL.Sem

/-! ## The two programs apply the same index chains -/

theorem gathered_agree (x0 : (⟨Cert.KernelIdeal.S4x65536x3, .f32⟩ : BufTy).Contents (Elt Ideal)) (x1 : (⟨Cert.KernelIdeal.S4x65536x16, .i32⟩ : BufTy).Contents (Elt Ideal)) :
    Cert.KernelIdeal.Fold.gathered (F := Ideal) x0 x1 = Cert.ReferenceIdeal.Chains.gathered (F := Ideal) x0 x1 := rfl

theorem takeChain_agree (a : (⟨Cert.KernelIdeal.S4x32x65536, .f32⟩ : BufTy).Contents (Elt Ideal)) (i : (⟨Cert.KernelIdeal.S4x1x262144, .i32⟩ : BufTy).Contents (Elt Ideal)) :
    Cert.KernelIdeal.Fold.takeChain (F := Ideal) a i = Cert.ReferenceIdeal.Chains.takeChain (F := Ideal) a i := rfl

theorem interpChain_agree (a : (⟨Cert.KernelIdeal.S4x32x16384, .f32⟩ : BufTy).Contents (Elt Ideal)) (i : (⟨Cert.KernelIdeal.S4x1x65536, .i32⟩ : BufTy).Contents (Elt Ideal)) :
    Cert.KernelIdeal.Fold.interpChain (F := Ideal) a i = Cert.ReferenceIdeal.Chains.interpChain (F := Ideal) a i := rfl

/-! ## The kernel program's three results are the reference's functions of the arguments -/

section Values
variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

theorem rel_value : Cert.KernelIdeal.Gen.W9 m ρ c (Proc.devRef .tc Cert.KernelIdeal.main_v13)
    = Cert.ReferenceIdeal.Chains.out0 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
  rw [Cert.KernelIdeal.Fold.W9_v13, Cert.KernelIdeal.RelValue.rel_array (Cert.KernelIdeal.Gen.V1 m ρ) c, Cert.KernelIdeal.Fold.V1_v8, Cert.KernelIdeal.Fold.V1_v10,
    Cert.KernelIdeal.RelValue.rel_bridge, gathered_agree]
  rfl

theorem pool_value : Cert.KernelIdeal.Gen.W9 m ρ c (Proc.devRef .tc Cert.KernelIdeal.main_v21)
    = Cert.ReferenceIdeal.Chains.out1 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  rw [Cert.KernelIdeal.Fold.W9_v21, Cert.KernelIdeal.PoolValue.pool_array (Cert.KernelIdeal.Gen.V5 m ρ) c, Cert.KernelIdeal.Fold.V5_v19,
    Cert.KernelIdeal.PoolValue.pool_bridge _ _ _ _ _ Cert.ReferenceIdeal.Facts₀.shapeCasts_S4x32x262144_S4x32x16384x16
      Cert.ReferenceIdeal.Facts₀.reducesTo_S4x32x16384x16_S4x32x16384_d3 Cert.ReferenceIdeal.Facts₀.h_S_ Cert.ReferenceIdeal.Facts₀.bcast_S4x32x16384_S4x32x16384x1_0_1_2,
    takeChain_agree]
  rfl

theorem interp_value : Cert.KernelIdeal.Gen.W9 m ρ c (Proc.devRef .tc Cert.KernelIdeal.main_v25)
    = Cert.ReferenceIdeal.Chains.out2 (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  rw [Cert.KernelIdeal.Fold.W9_v25, interpChain_agree]
  rfl

end Values

/-! ## The claim about values -/

/-- The idealized kernel program's run with its three results and six arguments named. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v13) = Cert.KernelIdeal.Gen.W9 m ρ c (Proc.devRef .tc Cert.KernelIdeal.main_v13)
      ∧ r.2.mem ((c.tc : Thread Cert.KernelIdeal.nD Cert.KernelIdeal.τ).loc Cert.KernelIdeal.main_v21) = Cert.KernelIdeal.Gen.W9 m ρ c (Proc.devRef .tc Cert.KernelIdeal.main_v21)
      ∧ r.2.mem ((c.tc : Thread Cert.KernelIdeal.nD Cert.KernelIdeal.τ).loc Cert.KernelIdeal.main_v25) = Cert.KernelIdeal.Gen.W9 m ρ c (Proc.devRef .tc Cert.KernelIdeal.main_v25)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun r h c =>
    ⟨h c _ (Cert.KernelIdeal.Gen.mem_uc Cert.KernelIdeal.main_v13 (by decide)),
     h c _ (Cert.KernelIdeal.Gen.mem_uc Cert.KernelIdeal.main_v21 (by decide)),
     h c _ (Cert.KernelIdeal.Gen.mem_uc Cert.KernelIdeal.main_v25 (by decide)),
     (h c _ (Cert.KernelIdeal.Gen.mem_uc Cert.KernelIdeal.main_arg0 (by decide))).trans (Cert.KernelIdeal.Gen.W9_main_arg0 m ρ c),
     (h c _ (Cert.KernelIdeal.Gen.mem_uc Cert.KernelIdeal.main_arg1 (by decide))).trans (Cert.KernelIdeal.Gen.W9_main_arg1 m ρ c),
     (h c _ (Cert.KernelIdeal.Gen.mem_uc Cert.KernelIdeal.main_arg2 (by decide))).trans (Cert.KernelIdeal.Gen.W9_main_arg2 m ρ c),
     (h c _ (Cert.KernelIdeal.Gen.mem_uc Cert.KernelIdeal.main_arg3 (by decide))).trans (Cert.KernelIdeal.Gen.W9_main_arg3 m ρ c),
     (h c _ (Cert.KernelIdeal.Gen.mem_uc Cert.KernelIdeal.main_arg4 (by decide))).trans (Cert.KernelIdeal.Gen.W9_main_arg4 m ρ c),
     (h c _ (Cert.KernelIdeal.Gen.mem_uc Cert.KernelIdeal.main_arg5 (by decide))).trans (Cert.KernelIdeal.Gen.W9_main_arg5 m ρ c)⟩)
    (Cert.KernelIdeal.Run.run_all m ρ)

/-- From memories that agree on the six arguments the two idealized programs end with equal results: each result of
    the kernel program is the reference's function of the arguments (`rel_value`, `pool_value`, `interp_value`), and the
    reference's run ends at those functions of its own arguments. -/
theorem algebraic : Cert.algebraic_KernelIdeal_ReferenceIdeal := by
  intro m ρ m' ρ' _ hagree
  refine ⟨_, _, _, kernel_run m ρ, ?_⟩
  refine (θ_run Cert.ReferenceIdeal.defs _ _).mono (fun r h c => ⟨(h c).1.trans ?_, (h c).2.1.trans ?_, (h c).2.2.1.trans ?_, (h c).2.2.2⟩)
    (Cert.ReferenceIdeal.ValueP.run (F := Ideal) m' ρ')
  · rw [(hagree c).1, (hagree c).2.1]
    exact (rel_value m ρ c).symm
  · rw [(hagree c).2.2.1, (hagree c).2.2.2.1]
    exact (pool_value m ρ c).symm
  · rw [(hagree c).2.2.2.2.1, (hagree c).2.2.2.2.2]
    exact (interp_value m ρ c).symm

end Cert.Bridge

end
-- ==== Proof.lean ====
/-
  The certificate of the point-cloud kernel against its reference: three results — the relative position encoding
  of every point against its sixteen gathered neighbours, the maximum of the features taken at sixteen pooling
  indices, and the features taken at the interpolation indices.

  The three frames: the kernel program (at the bit-level instance and at the ideal one) is two pipelined regions
  among stretches of host operations, and its generated frame module proves that every weakly fair execution
  terminates, nothing faulting, with the six argument arrays unchanged; the reference is host operations only, and its
  frame is its run with the results dropped.  The idealization rewrote no operation, so nothing is owed for it.
  The values: `Cert.Bridge.algebraic` (the results module) — at the ideal instance both programs end at the same
  three functions of the six arguments.
-/
import proofs.«135792_j22170621181973_1_alg».proof.Defs
import proofs.«135792_j22170621181973_1_alg».proof.Proof.Gen.Kernel
import proofs.«135792_j22170621181973_1_alg».proof.Proof.Gen.Kernel.Skeleton
import proofs.«135792_j22170621181973_1_alg».proof.Proof.Gen.Kernel.Launch
import proofs.«135792_j22170621181973_1_alg».proof.Proof.Gen.Kernel.Points
import proofs.«135792_j22170621181973_1_alg».proof.Proof.Gen.Kernel.Frame
import proofs.«135792_j22170621181973_1_alg».proof.Proof.Gen.KernelIdeal
import proofs.«135792_j22170621181973_1_alg».proof.Proof.Gen.KernelIdeal.Skeleton
import proofs.«135792_j22170621181973_1_alg».proof.Proof.Gen.KernelIdeal.Launch
import proofs.«135792_j22170621181973_1_alg».proof.Proof.Gen.KernelIdeal.Points
import proofs.«135792_j22170621181973_1_alg».proof.Proof.Gen.KernelIdeal.Frame
import proofs.«135792_j22170621181973_1_alg».proof.Proof.Gen.ReferenceIdeal
import proofs.«135792_j22170621181973_1_alg».proof.Proof.Gen.Pre_finite_inputs
import proofs.«135792_j22170621181973_1_alg».proof.Proof.RefRun
import proofs.«135792_j22170621181973_1_alg».proof.Proof.Results
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the three results dropped. -/
theorem frame_referenceIdeal : Cert.frame_ReferenceIdeal := fun m ρ _ =>
  (θ_run Cert.ReferenceIdeal.defs _ _).mono (fun _ h c => (h c).2.2.2) (Cert.ReferenceIdeal.ValueP.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Bridge.algebraic⟩

end Cert.Proof

end
